-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v77_1)) (v1 : (c : Dev Cert.KernelIdeal.nD) → Buf (Elt Ideal) ((c.tc : Thread Cert.KernelIdeal.nD Cert.KernelIdeal.τ).loc Cert.KernelIdeal.main_v77_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77_1) = v0 c
          ∧ r.2.mem ((c.tc : Thread Cert.KernelIdeal.nD Cert.KernelIdeal.τ).loc Cert.KernelIdeal.main_v77_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg8 : FVec F S16x8 .f32) (main_arg9 : FVec F S8 .f32) (main_v33 : IVec S_ 1) : IVec S_ 1 :=
  let main_v34 : FVec F S16x8 .f32 := Host.absf main_arg8
  let main_cst_12 : FVec F S_ .f32 := constant S_ .f32 0x7F800000#32
  let main_v35 : FVec F S16x8 .f32 := broadcastInDim S16x8 ![] bcast_S_S16x8 main_cst_12
  let main_v36 : IVec S16x8 1 := cmpf .olt main_v34 main_v35
  let main_c_13 : IVec S_ 1 := constantI S_ 1 1#1
  let main_v37 : IVec S_ 1 := (fun x v => Host.reduce IntOp.andi x v reducesTo_S16x8_S_d0_1 h_S_) main_v36 main_c_13
  let main_v38 : IVec S_ 1 := andi main_v33 main_v37
  let main_v39 : FVec F S8 .f32 := Host.absf main_arg9
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg5 : FVec F S32 .f32) (main_arg6 : FVec F S32x16 .f32) (main_arg7 : FVec F S16 .f32) (main_arg8 : FVec F S16x8 .f32) (main_arg9 : FVec F S8 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x1600000 32) (main_arg2 : FVec F S32x32 .f32) (main_arg3 : FVec F S32 .f32) (main_arg4 : FVec F S32x32 .f32) (main_arg5 : FVec F S32 .f32) (main_arg6 : FVec F S32x16 .f32) (main_arg7 : FVec F S16 .f32) (main_arg8 : FVec F S16x8 .f32) (main_arg9 : FVec F S8 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg2
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x32 : Shape := ⟨2, ![10000, 32]⟩
abbrev S1700000x32 : Shape := ⟨2, ![1700000, 32]⟩
abbrev S1x32 : Shape := ⟨2, ![1, 32]⟩
abbrev S1x16 : Shape := ⟨2, ![1, 16]⟩
abbrev S100000x16 : Shape := ⟨2, ![100000, 16]⟩
abbrev S10000x16 : Shape := ⟨2, ![10000, 16]⟩
abbrev S1700000x16 : Shape := ⟨2, ![1700000, 16]⟩
abbrev S1x8 : Shape := ⟨2, ![1, 8]⟩
abbrev S100000x8 : Shape := ⟨2, ![100000, 8]⟩
abbrev S10000x8 : Shape := ⟨2, ![10000, 8]⟩

abbrev nBuf : Space → Nat
  | .hbm => 108
  | .vmem => 32
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x8, .f32⟩
  | .hbm, ⟨9, _⟩ => ⟨S8, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S100000x32, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x32, .f32⟩
  | .hbm, ⟨53, _⟩ => ⟨S1700000x1, .f32⟩
  | .hbm, ⟨54, _⟩ => ⟨S1700000x32, .f32⟩
  | .hbm, ⟨55, _⟩ => ⟨S1700000x32, .f32⟩
  | .hbm, ⟨56, _⟩ => ⟨S_, .f32⟩
  | .hbm, ⟨57, _⟩ => ⟨S100000x32, .f32⟩
  | .hbm, ⟨58, _⟩ => ⟨S1700000x1, .i32⟩
  | .hbm, ⟨59, _⟩ => ⟨S100000x32, .f32⟩
  | .hbm, ⟨60, _⟩ => ⟨S_, .f32⟩
  | .hbm, ⟨61, _⟩ => ⟨S32, .f32⟩
  | .hbm, ⟨62, _⟩ => ⟨S1x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x32, .f32⟩
  | .hbm, ⟨75, _⟩ => ⟨S1700000x1, .f32⟩
  | .hbm, ⟨76, _⟩ => ⟨S1700000x32, .f32⟩
  | .hbm, ⟨77, _⟩ => ⟨S1700000x32, .f32⟩
  | .hbm, ⟨78, _⟩ => ⟨S_, .f32⟩
  | .hbm, ⟨79, _⟩ => ⟨S100000x32, .f32⟩
  | .hbm, ⟨80, _⟩ => ⟨S1700000x1, .i32⟩
  | .hbm, ⟨81, _⟩ => ⟨S100000x32, .f32⟩
  | .hbm, ⟨82, _⟩ => ⟨S_, .f32⟩
  | .hbm, ⟨83, _⟩ => ⟨S16, .f32⟩
  | .hbm, ⟨84, _⟩ => ⟨S1x32, .f32⟩
  | .hbm, ⟨85, _⟩ => ⟨S1x16, .f32⟩
  | .hbm, ⟨86, _⟩ => ⟨S100000x32, .f32⟩
  | .hbm, ⟨87, _⟩ => ⟨S100000x16, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x16, .f32⟩
  | .hbm, ⟨97, _⟩ => ⟨S1700000x1, .f32⟩
  | .hbm, ⟨98, _⟩ => ⟨S1700000x16, .f32⟩
  | .hbm, ⟨99, _⟩ => ⟨S1700000x16, .f32⟩
  | .hbm, ⟨100, _⟩ => ⟨S_, .f32⟩
  | .hbm, ⟨101, _⟩ => ⟨S100000x16, .f32⟩
  | .hbm, ⟨102, _⟩ => ⟨S1700000x1, .i32⟩
  | .hbm, ⟨103, _⟩ => ⟨S100000x16, .f32⟩
  | .hbm, ⟨104, _⟩ => ⟨S1x16, .f32⟩
  | .hbm, ⟨105, _⟩ => ⟨S1x8, .f32⟩
  | .hbm, ⟨106, _⟩ => ⟨S100000x16, .f32⟩
  | .hbm, ⟨107, _⟩ => ⟨S100000x8, .f32⟩
  | .local _ .vmem, ⟨0, _⟩ => ⟨S10000x32, .f32⟩
  | .local _ .vmem, ⟨1, _⟩ => ⟨S10000x32, .f32⟩
  | .local _ .vmem, ⟨2, _⟩ => ⟨S32x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S1x32, .f32⟩
  | .local _ .vmem, ⟨17, _⟩ => ⟨S32x16, .f32⟩
  | .local _ .vmem, ⟨18, _⟩ => ⟨S1x16, .f32⟩
  | .local _ .vmem, ⟨19, _⟩ => ⟨S10000x32, .f32⟩
  | .local _ .vmem, ⟨20, _⟩ => ⟨S10000x32, .f32⟩
  | .local _ .vmem, ⟨21, _⟩ => ⟨S10000x16, .f32⟩
  | .local _ .vmem, ⟨22, _⟩ => ⟨S10000x16, .f32⟩
  | .local _ .vmem, ⟨23, _⟩ => ⟨S10000x16, .f32⟩
  | .local _ .vmem, ⟨24, _⟩ => ⟨S10000x16, .f32⟩
  | .local _ .vmem, ⟨25, _⟩ => ⟨S1x16, .f32⟩
  | .local _ .vmem, ⟨26, _⟩ => ⟨S16x8, .f32⟩
  | .local _ .vmem, ⟨27, _⟩ => ⟨S1x8, .f32⟩
  | .local _ .vmem, ⟨28, _⟩ => ⟨S10000x16, .f32⟩
  | .local _ .vmem, ⟨29, _⟩ => ⟨S10000x16, .f32⟩
  | .local _ .vmem, ⟨30, _⟩ => ⟨S10000x8, .f32⟩
  | .local _ .vmem, ⟨31, _⟩ => ⟨S10000x8, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44_0 : Ref sig .tc := ⟨.hbm, 64, rfl⟩
abbrev main_v44_1 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61_0 : Ref sig .tc := ⟨.hbm, 86, rfl⟩
abbrev main_v61_1 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77_0 : Ref sig .tc := ⟨.hbm, 106, rfl⟩
abbrev main_v77_1 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc3_stg5_0 : Ref sig .tc := ⟨.vmem, 30, rfl⟩
abbrev cc3_stg5_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem4_1 : DmaSem sig := 29
abbrev cc3_sem5_0 : DmaSem sig := 30
abbrev cc3_sem5_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S10000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S10000x8 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S_S32 : S_.BroadcastsInDim S32 (![] : Fin 0 → Fin S32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  bcast_S_S16 : S_.BroadcastsInDim S16 (![] : Fin 0 → Fin S16.rank)
  shapeCasts_S16_S1x16 : S16.ShapeCasts S1x16
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S8_S1x8 : S8.ShapeCasts S1x8
  shapeCasts_S10000x16_S10000x16 : S10000x16.ShapeCasts S10000x16
  inb_S16x8_S16x8_0_0 : ∀ a, (![0, 0] : Fin 2 → Nat) a + S16x8.size a ≤ S16x8.size a
  h_S16x8 : 0 < S16x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S10000x8 : S1x8.Broadcasts S10000x8
  inb_S10000x8_S10000x8_0_0 : ∀ a, (![0, 0] : Fin 2 → Nat) a + S10000x8.size a ≤ S10000x8.size a
  h_S10000x8 : 0 < S10000x8.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x32_S32x32_S10000x32_1_0_0_1_n_n_wf : DotDims.WF S10000x32 S32x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x16_S10000x16_1_0_0_1_n_n_wf : DotDims.WF S10000x32 S32x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x8_S10000x8_1_0_0_1_n_n_wf : DotDims.WF S10000x16 S16x8 S10000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x32.size a ≤ S100000x32.size a
  hwx1_4 : ∀ i : grid1.Coords, EltTy.bits .f32 = 32 ∨ (Rect.block (s := S100000x32) S10000x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x32.size a ≤ S100000x32.size a
  hwx1_5 : ∀ i : grid1.Coords, EltTy.bits .f32 = 32 ∨ (Rect.block (s := S100000x32) S10000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x16.size a ≤ S32x16.size a
  hwx2_2 : ∀ i : grid2.Coords, EltTy.bits .f32 = 32 ∨ (Rect.block (s := S32x16) S32x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x32.size a ≤ S100000x32.size a
  hwx2_4 : ∀ i : grid2.Coords, EltTy.bits .f32 = 32 ∨ (Rect.block (s := S100000x32) S10000x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x16.size a ≤ S100000x16.size a
  hwx2_5 : ∀ i : grid2.Coords, EltTy.bits .f32 = 32 ∨ (Rect.block (s := S100000x16) S10000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x16.size a ≤ S100000x16.size a
  hwx3_0 : ∀ i : grid3.Coords, EltTy.bits .f32 = 32 ∨ (Rect.block (s := S100000x16) S10000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x8.size a ≤ S16x8.size a
  hwx3_2 : ∀ i : grid3.Coords, EltTy.bits .f32 = 32 ∨ (Rect.block (s := S16x8) S16x8.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x16.size a ≤ S100000x16.size a
  hwx3_4 : ∀ i : grid3.Coords, EltTy.bits .f32 = 32 ∨ (Rect.block (s := S100000x16) S10000x16.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x8.size a ≤ S100000x8.size a
  hwx3_5 : ∀ i : grid3.Coords, EltTy.bits .f32 = 32 ∨ (Rect.block (s := S100000x8) S10000x8.size (cc3_transform_5 i) (hinb3_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44_0) S10000x32.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v44_1) S10000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61_0) S10000x32.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v61_1) S10000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v74) S10000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S16x8.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v77_0) S10000x16.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v77_1) S10000x8.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S32x32 : Shape := ⟨2, ![32, 32]⟩
abbrev S32 : Shape := ⟨1, ![32]⟩
abbrev S32x16 : Shape := ⟨2, ![32, 16]⟩
abbrev S16 : Shape := ⟨1, ![16]⟩
abbrev S16x8 : Shape := ⟨2, ![16, 8]⟩
abbrev S8 : Shape := ⟨1, ![8]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩
abbrev S100000x8 : Shape := ⟨2, ![100000, 8]⟩
abbrev S1x8 : Shape := ⟨2, ![1, 8]⟩

abbrev nBuf : Space → Nat
  | .hbm => 110
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S32x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S16x8, .f32⟩
  | .hbm, ⟨9, _⟩ => ⟨S8, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S100000x32, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x32, .f32⟩
  | .hbm, ⟨53, _⟩ => ⟨S1700000x1, .f32⟩
  | .hbm, ⟨54, _⟩ => ⟨S1700000x32, .f32⟩
  | .hbm, ⟨55, _⟩ => ⟨S1700000x32, .f32⟩
  | .hbm, ⟨56, _⟩ => ⟨S_, .f32⟩
  | .hbm, ⟨57, _⟩ => ⟨S100000x32, .f32⟩
  | .hbm, ⟨58, _⟩ => ⟨S1700000x1, .i32⟩
  | .hbm, ⟨59, _⟩ => ⟨S100000x32, .f32⟩
  | .hbm, ⟨60, _⟩ => ⟨S1x32, .f32⟩
  | .hbm, ⟨61, _⟩ => ⟨S100000x32, .f32⟩
  | .hbm, ⟨62, _⟩ => ⟨S100000x32, .f32⟩
  | .hbm, ⟨63, _⟩ => ⟨S100000x32, .f32⟩
  | .hbm, ⟨64, _⟩ => ⟨S100000x32, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x32, .f32⟩
  | .hbm, ⟨74, _⟩ => ⟨S1700000x1, .f32⟩
  | .hbm, ⟨75, _⟩ => ⟨S1700000x32, .f32⟩
  | .hbm, ⟨76, _⟩ => ⟨S1700000x32, .f32⟩
  | .hbm, ⟨77, _⟩ => ⟨S_, .f32⟩
  | .hbm, ⟨78, _⟩ => ⟨S100000x32, .f32⟩
  | .hbm, ⟨79, _⟩ => ⟨S1700000x1, .i32⟩
  | .hbm, ⟨80, _⟩ => ⟨S100000x32, .f32⟩
  | .hbm, ⟨81, _⟩ => ⟨S1x32, .f32⟩
  | .hbm, ⟨82, _⟩ => ⟨S100000x32, .f32⟩
  | .hbm, ⟨83, _⟩ => ⟨S100000x32, .f32⟩
  | .hbm, ⟨84, _⟩ => ⟨S100000x32, .f32⟩
  | .hbm, ⟨85, _⟩ => ⟨S100000x16, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x16, .f32⟩
  | .hbm, ⟨95, _⟩ => ⟨S1700000x1, .f32⟩
  | .hbm, ⟨96, _⟩ => ⟨S1700000x16, .f32⟩
  | .hbm, ⟨97, _⟩ => ⟨S1700000x16, .f32⟩
  | .hbm, ⟨98, _⟩ => ⟨S_, .f32⟩
  | .hbm, ⟨99, _⟩ => ⟨S100000x16, .f32⟩
  | .hbm, ⟨100, _⟩ => ⟨S1700000x1, .i32⟩
  | .hbm, ⟨101, _⟩ => ⟨S100000x16, .f32⟩
  | .hbm, ⟨102, _⟩ => ⟨S1x16, .f32⟩
  | .hbm, ⟨103, _⟩ => ⟨S100000x16, .f32⟩
  | .hbm, ⟨104, _⟩ => ⟨S100000x16, .f32⟩
  | .hbm, ⟨105, _⟩ => ⟨S100000x16, .f32⟩
  | .hbm, ⟨106, _⟩ => ⟨S100000x8, .f32⟩
  | .hbm, ⟨107, _⟩ => ⟨S1x8, .f32⟩
  | .hbm, ⟨108, _⟩ => ⟨S100000x8, .f32⟩
  | .hbm, ⟨109, _⟩ => ⟨S100000x8, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_c_10 : Ref sig .tc := ⟨.hbm, 86, rfl⟩
abbrev main_v64 : Ref sig .tc := ⟨.hbm, 87, rfl⟩
abbrev main_v65 : Ref sig .tc := ⟨.hbm, 88, rfl⟩
abbrev main_c_11 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_12 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x32_S100000x32_1_0_0_1_n_n_wf : DotDims.WF S100000x32 S32x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x8_S100000x8_1_0_0_1_n_n_wf : DotDims.WF S100000x16 S16x8 S100000x8 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf

class Facts : Prop extends Facts₀ where

variable [Facts]
-- ==== Proof.ResultRun.lean ====
/-
  The idealized kernel's run with its two results kept. Every weakly fair execution of the program — four launches among
  stretches of host operations — terminates without a fault, and in the final state every buffer that outlives the
  launches holds what the last boundary's contents say: in particular the two result buffers hold the last launch's two
  output arrays, and the ten arguments are as they were at the start.
-/
import proofs.«144924_j60344290508978_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, read at the results: each result buffer ends at the last boundary's contents of it, each argument as launched. -/
theorem run_results : θ_run defs (onTc (τ := τ) (main (F := F))) ⟨m, fun _ => 0, ρ⟩ (fun r => ∀ c : Dev nD,
      r.2.mem ((c.tc : Thread nD τ).loc main_v77_1) = W8 m ρ c (Proc.devRef .tc main_v77_1)
      ∧ r.2.mem ((c.tc : Thread nD τ).loc main_v77_0) = W8 m ρ c (Proc.devRef .tc main_v77_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v77_1 (by decide)),
       h c _ (mem_uc main_v77_0 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.ResultRun

end
-- ==== Proof.FirstProduct.lean ====
/-
  The first projection. The first launch tiles the node features x : [100000, 32] into ten blocks of 10000 rows, keeps the
  weight W₁ : [32, 32] whole, and stores in each row block the product of that block with W₁, accumulated from zero.
  On the extended reals an entry of that product is the finite sum  Σ_k x[r, k] · W₁[k, j]  (narrowing the factors to a
  shorter float format changes nothing there, and adding the sum to zero is the sum). The ten row blocks tile the
  result, so after the launch the whole result array holds, at (r, j), that sum — which is, index by index, the
  reference's matrix product of the two whole arrays.
-/
import proofs.«144924_j60344290508978_1_alg».proof.Proof.Gen.KernelIdeal.Frame
import proofs.«144924_j60344290508978_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Idealize.ShloMosaic Idealize.ShloMosaic.TcCoe Idealize.SL.Sem
open Idealize.ShloMosaic.Pipeline (Dat)
open Idealize.ShloMosaic.ValueIdx
open Cert.KernelIdeal Cert.KernelIdeal.Gen

/-! ## The block product at an entry -/

theorem lhs_row (y : S10000x32.Idx) (q : dot_S10000x32_S32x32_S10000x32_1_0_0_1_n_n.contr.Idx) : (dot_S10000x32_S32x32_S10000x32_1_0_0_1_n_n.lhsIdx y q 0).val = (y 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhs_col (y : S10000x32.Idx) (q : dot_S10000x32_S32x32_S10000x32_1_0_0_1_n_n.contr.Idx) : (dot_S10000x32_S32x32_S10000x32_1_0_0_1_n_n.lhsIdx y q 1).val = (q ⟨0, by decide⟩).val :=
  dot_S10000x32_S32x32_S10000x32_1_0_0_1_n_n.lhsIdx_val_of_single rfl y q
theorem rhs_row (y : S10000x32.Idx) (q : dot_S10000x32_S32x32_S10000x32_1_0_0_1_n_n.contr.Idx) : (dot_S10000x32_S32x32_S10000x32_1_0_0_1_n_n.rhsIdx y q 0).val = (q ⟨0, by decide⟩).val :=
  dot_S10000x32_S32x32_S10000x32_1_0_0_1_n_n.rhsIdx_val_of_single rfl y q
theorem rhs_col (y : S10000x32.Idx) (q : dot_S10000x32_S32x32_S10000x32_1_0_0_1_n_n.contr.Idx) : (dot_S10000x32_S32x32_S10000x32_1_0_0_1_n_n.rhsIdx y q 1).val = (y 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- An entry of a row block times the weight: the sum over the 32 shared coordinates of the products. -/
theorem product_apply (x : Vec Ideal S10000x32 .f32) (w : Vec Ideal S32x32 .f32) (y : S10000x32.Idx) :
    k0_pay1 x w y = ∑ k : Fin 32, x (ix2 (y 0) k) * w (ix2 k (y 1)) := by
  unfold k0_pay1
  refine (Ideal.matmul_constant_zero_apply dot_S10000x32_S32x32_S10000x32_1_0_0_1_n_n none _ _ y).trans ?_
  rw [← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx y ((ValueIdx.contrEquiv1 dot_S10000x32_S32x32_S10000x32_1_0_0_1_n_n 32 rfl rfl).symm k) = ix2 (y 0) k := funext fun a => Fin.ext (by
    match a with
    | ⟨0, _⟩ => exact lhs_row _ _
    | ⟨1, _⟩ => exact (lhs_col _ _).trans hk)
  have er : dot_S10000x32_S32x32_S10000x32_1_0_0_1_n_n.rhsIdx y ((ValueIdx.contrEquiv1 dot_S10000x32_S32x32_S10000x32_1_0_0_1_n_n 32 rfl rfl).symm k) = ix2 k (y 1) := funext fun a => Fin.ext (by
    match a with
    | ⟨0, _⟩ => exact (rhs_row _ _).trans hk
    | ⟨1, _⟩ => exact rhs_col _ _)
  rw [el, er]
  rfl

/-! ## From the ten row blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the blocks sit: the features' and the result's block at point t start at row block t, column block 0; the
    weight's block is the whole weight. -/
theorem block_places : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the ten row blocks is some point's. -/
theorem block_onto : ∀ q : Fin 10, ∃ t : Fin cfg0.N, win0_2.index t = ![q.val, 0] :=
  (by decide +kernel : ∀ q : Fin 10, ∃ t : Fin grid0.N, win0_2.index t = ![q.val, 0])

/-- The whole result: the reference's product of the two arrays as the launch finds them. -/
abbrev whole (c : Dev nD) : S100000x32.Idx → Elt Ideal .f32 :=
  Cert.ReferenceIdeal.Read.val_main_v27 (F := Ideal) (V c main_arg0) (V c main_arg2)

/-- What point t writes back is block t of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero zero_offsets]
  simp only [View.ld_unit_zero (S := S10000x32) zero_offsets, View.ld_unit_zero (S := S32x32) zero_offsets]
  obtain ⟨e0, e1, e2, e3, e4⟩ := block_places t
  funext y
  show k0_pay1 (iblk0 V c 0 t) (iblk0 V c 1 t) y
    = Cert.ReferenceIdeal.Read.val_main_v27 (F := Ideal) (V c main_arg0) (V c main_arg2) (((cfg0.win 2).blk t).view.emb y)
  refine (product_apply _ _ y).trans ?_
  refine Eq.trans ?_ (Cert.ReferenceIdeal.Read.val_main_v27_apply _ _ _).symm
  refine Finset.sum_congr rfl fun k _ => ?_
  have hy0 : (y 0).val < 10000 := (y 0).isLt
  have hy1 : (y 1).val < 32 := (y 1).isLt
  have hk : k.val < 32 := k.isLt
  have h0 : iblk0 V c 0 t (ix2 (y 0) k) = V c main_arg0 (Cert.ReferenceIdeal.Read.lidx_main_v27 (((cfg0.win 2).blk t).view.emb y) k) := by
    show V c main_arg0 (((cfg0.win 0).blk t).view.emb (ix2 (y 0) k)) = _
    refine congrArg _ (funext fun a => Fin.ext ?_)
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 32 + 1 * k.val = k.val; omega
  have h1 : iblk0 V c 1 t (ix2 k (y 1)) = V c main_arg2 (Cert.ReferenceIdeal.Read.ridx_main_v27 (((cfg0.win 2).blk t).view.emb y) k) := by
    show V c main_arg2 (((cfg0.win 1).blk t).view.emb (ix2 k (y 1))) = _
    refine congrArg _ (funext fun a => Fin.ext ?_)
    match a with
    | ⟨0, _⟩ => show win0_1.index t (0 : Fin 2) * 32 + 1 * k.val = k.val; omega
    | ⟨1, _⟩ => show win0_1.index t (1 : Fin 2) * 32 + 1 * (y 1).val = win0_2.index t (1 : Fin 2) * 32 + 1 * (y 1).val; omega
  rw [h0, h1]

/-- An index is in point t's block iff each coordinate is in the block's range. -/
theorem mem_block (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v27).slice (win0_2.rect t)).set ↔ _
  rw [View.set_slice_whole, Rect.mem_set_unit]
  exact Iff.rfl

/-- Row r lies in row block r / 10000: the blocks cover the array. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ := block_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- After the launch the result array is the reference's product of the features and the first weight. -/
theorem final (c : Dev nD) : (dat0 V c).arrAt 2 cfg0.N = whole V c :=
  (dat0 V c).arrAt_eq_of_cover 2 (whole V c) (fun t _ => flushed_eq V c t) (covered)

end Cert.KernelIdeal.FirstProduct

end
-- ==== Proof.LayerOne.lean ====
/-
  The first hidden layer and the projection that follows it. The launch tiles the aggregated messages
  a : [100000, 32] into ten blocks of 10000 rows and keeps the bias row b : [1, 32], the weight W₂ : [32, 32] and a second
  bias row b' : [1, 32] whole. In each row block it stores  h = tanh(a + b)  (the bias added to every row) and
  h · W₂ + b'  (the product accumulated from zero, then the second bias added to every row). On the extended reals the
  second array's entry at (r, j) is  (Σ_k tanh(a[r, k] + b[0, k]) · W₂[k, j]) + b'[0, j] : narrowing h and the weight to a
  shorter float format changes nothing there, and a sum added to zero is the sum. The ten row blocks tile both results,
  so after the launch the two arrays hold these functions of the arrays the launch found, index by index.
-/
import proofs.«144924_j60344290508978_1_alg».proof.Proof.Gen.KernelIdeal.Frame
import proofs.«144924_j60344290508978_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.LayerOne

open Idealize.ShloMosaic Idealize.ShloMosaic.TcCoe Idealize.SL.Sem
open Idealize.ShloMosaic.Pipeline (Dat)
open Idealize.ShloMosaic.ValueIdx
open Cert.KernelIdeal Cert.KernelIdeal.Gen

/-! ## The block's two stores at an entry -/

/-- The hidden block: tanh of the message entry plus the bias of its column. -/
theorem hidden_apply (x0 : Vec Ideal S10000x32 .f32) (x1 : Vec Ideal S1x32 .f32) (z : S10000x32.Idx) :
    k1_pay1 x0 x1 z = Ideal.tanh (x0 z + x1 (ix2 (0 : Fin 1) (z 1))) := by
  unfold k1_pay1
  show Ideal.tanh (shapeCast S10000x32 x0 shapeCasts_S10000x32_S10000x32 z + broadcastTo S10000x32 (shapeCast S1x32 x1 shapeCasts_S1x32_S1x32) broadcasts_S1x32_S10000x32 z) = _
  rw [shapeCast_self, shapeCast_self]
  rw [broadcastTo_apply x1 broadcasts_S1x32_S10000x32 z (ix2 (0 : Fin 1) (z 1)) (fun a => by
    match a with
    | ⟨0, _⟩ => rfl
    | ⟨1, _⟩ => rfl)]

theorem lhs_row (y : S10000x32.Idx) (q : dot_S10000x32_S32x32_S10000x32_1_0_0_1_n_n.contr.Idx) : (dot_S10000x32_S32x32_S10000x32_1_0_0_1_n_n.lhsIdx y q 0).val = (y 0).val := by
  unfold DotDims.lhsIdx
  rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
  rfl
theorem lhs_col (y : S10000x32.Idx) (q : dot_S10000x32_S32x32_S10000x32_1_0_0_1_n_n.contr.Idx) : (dot_S10000x32_S32x32_S10000x32_1_0_0_1_n_n.lhsIdx y q 1).val = (q ⟨0, by decide⟩).val :=
  dot_S10000x32_S32x32_S10000x32_1_0_0_1_n_n.lhsIdx_val_of_single rfl y q
theorem rhs_row (y : S10000x32.Idx) (q : dot_S10000x32_S32x32_S10000x32_1_0_0_1_n_n.contr.Idx) : (dot_S10000x32_S32x32_S10000x32_1_0_0_1_n_n.rhsIdx y q 0).val = (q ⟨0, by decide⟩).val :=
  dot_S10000x32_S32x32_S10000x32_1_0_0_1_n_n.rhsIdx_val_of_single rfl y q
theorem rhs_col (y : S10000x32.Idx) (q : dot_S10000x32_S32x32_S10000x32_1_0_0_1_n_n.contr.Idx) : (dot_S10000x32_S32x32_S10000x32_1_0_0_1_n_n.rhsIdx y q 1).val = (y 1).val := by
  unfold DotDims.rhsIdx
  rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
  rfl

/-- The projected block: the sum over the 32 shared coordinates of hidden entry times weight entry, plus the second
    bias of the column. -/
theorem projected_apply (x0 : Vec Ideal S10000x32 .f32) (x1 : Vec Ideal S1x32 .f32) (x2 : Vec Ideal S32x32 .f32) (x3 : Vec Ideal S1x32 .f32) (y : S10000x32.Idx) :
    k1_pay2 x0 x1 x2 x3 y
      = (∑ k : Fin 32, Ideal.tanh (x0 (ix2 (y 0) k) + x1 (ix2 (0 : Fin 1) k)) * x2 (ix2 k (y 1))) + x3 (ix2 (0 : Fin 1) (y 1)) := by
  unfold k1_pay2
  show FloatOps.matmul dot_S10000x32_S32x32_S10000x32_1_0_0_1_n_n none (truncf .bf16 (k1_pay1 x0 x1) bitsLt_bf16_f32) (truncf .bf16 x2 bitsLt_bf16_f32) (constant S10000x32 .f32 0x00000000#32) y
      + broadcastTo S10000x32 (shapeCast S1x32 x3 shapeCasts_S1x32_S1x32) broadcasts_S1x32_S10000x32 y = _
  rw [shapeCast_self]
  rw [broadcastTo_apply x3 broadcasts_S1x32_S10000x32 y (ix2 (0 : Fin 1) (y 1)) (fun a => by
    match a with
    | ⟨0, _⟩ => rfl
    | ⟨1, _⟩ => rfl)]
  refine congrArg (· + x3 (ix2 (0 : Fin 1) (y 1))) ?_
  refine (Ideal.matmul_constant_zero_apply dot_S10000x32_S32x32_S10000x32_1_0_0_1_n_n none _ _ y).trans ?_
  rw [← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx y ((ValueIdx.contrEquiv1 dot_S10000x32_S32x32_S10000x32_1_0_0_1_n_n 32 rfl rfl).symm k) = ix2 (y 0) k := funext fun a => Fin.ext (by
    match a with
    | ⟨0, _⟩ => exact lhs_row _ _
    | ⟨1, _⟩ => exact (lhs_col _ _).trans hk)
  have er : dot_S10000x32_S32x32_S10000x32_1_0_0_1_n_n.rhsIdx y ((ValueIdx.contrEquiv1 dot_S10000x32_S32x32_S10000x32_1_0_0_1_n_n 32 rfl rfl).symm k) = ix2 k (y 1) := funext fun a => Fin.ext (by
    match a with
    | ⟨0, _⟩ => exact (rhs_row _ _).trans hk
    | ⟨1, _⟩ => exact rhs_col _ _)
  rw [el, er]
  show k1_pay1 x0 x1 (ix2 (y 0) k) * x2 (ix2 k (y 1)) = _
  rw [hidden_apply]

/-! ## From the ten row blocks to the two arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the blocks sit: the messages' and both results' blocks at point t start at row block t, column block 0; the two
    bias rows and the weight are whole. -/
theorem block_places : ∀ t : Fin cfg1.N, win1_0.index t (0 : Fin 2) = win1_5.index t (0 : Fin 2)
    ∧ win1_4.index t (0 : Fin 2) = win1_5.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_5.index t (1 : Fin 2) = 0 :=
  (by decide +kernel : ∀ t : Fin grid1.N, _)

/-- Every one of the ten row blocks is some point's, for both results. -/
theorem block_onto : ∀ q : Fin 10, ∃ t : Fin cfg1.N, win1_4.index t = ![q.val, 0] ∧ win1_5.index t = ![q.val, 0] :=
  (by decide +kernel : ∀ q : Fin 10, ∃ t : Fin grid1.N, win1_4.index t = ![q.val, 0] ∧ win1_5.index t = ![q.val, 0])

/-- The hidden layer as one function of the messages and the bias row. -/
def hidden (a : S100000x32.Idx → EReal) (b : S1x32.Idx → EReal) : S100000x32.Idx → EReal :=
  fun i => Ideal.tanh (a i + b (ix2 (0 : Fin 1) (i 1)))

/-- The projection of the hidden layer as one function of the messages, the bias row, the weight and the second bias row. -/
def projected (a : S100000x32.Idx → EReal) (b : S1x32.Idx → EReal) (w : S32x32.Idx → EReal) (b' : S1x32.Idx → EReal) : S100000x32.Idx → EReal :=
  fun i => (∑ k : Fin 32, Ideal.tanh (a (ix2 (i 0) k) + b (ix2 (0 : Fin 1) k)) * w (ix2 k (i 1))) + b' (ix2 (0 : Fin 1) (i 1))

/-- What point t writes back to the hidden array is block t of `hidden` of the arrays the launch found. -/
theorem flushed_hidden (c : Dev nD) (t : Fin cfg1.N) :
    (dat1 V c).flushed 4 t = ((cfg1.win 4).blk t).view.read (Elt Ideal) (hidden (V c main_v40) (V c main_v42)) := by
  show (cfg1.win 4).cut (grid1.coords t) ((dat1 V c).after 4 t) = _
  rw [after1_4]
  unfold out1_4
  rw [View.canon_unit_zero zero_offsets]
  simp only [View.ld_unit_zero (S := S10000x32) zero_offsets, View.ld_unit_zero (S := S1x32) zero_offsets]
  obtain ⟨e0, e4, e1, e2, e3, e5, e6, e7, e8, e9, e10⟩ := block_places t
  funext y
  show k1_pay1 (iblk1 V c 0 t) (iblk1 V c 1 t) y = hidden (V c main_v40) (V c main_v42) (((cfg1.win 4).blk t).view.emb y)
  refine (hidden_apply _ _ y).trans ?_
  have hy0 : (y 0).val < 10000 := (y 0).isLt
  have hy1 : (y 1).val < 32 := (y 1).isLt
  have h0 : iblk1 V c 0 t y = V c main_v40 (((cfg1.win 4).blk t).view.emb y) := by
    show V c main_v40 (((cfg1.win 0).blk t).view.emb y) = _
    refine congrArg _ (funext fun a => Fin.ext ?_)
    match a with
    | ⟨0, _⟩ => show win1_0.index t (0 : Fin 2) * 10000 + 1 * (y 0).val = win1_4.index t (0 : Fin 2) * 10000 + 1 * (y 0).val; omega
    | ⟨1, _⟩ => show win1_0.index t (1 : Fin 2) * 32 + 1 * (y 1).val = win1_4.index t (1 : Fin 2) * 32 + 1 * (y 1).val; omega
  have h1 : iblk1 V c 1 t (ix2 (0 : Fin 1) (y 1)) = V c main_v42 (ix2 (0 : Fin 1) ((((cfg1.win 4).blk t).view.emb y) 1)) := by
    show V c main_v42 (((cfg1.win 1).blk t).view.emb (ix2 (0 : Fin 1) (y 1))) = _
    refine congrArg _ (funext fun a => Fin.ext ?_)
    match a with
    | ⟨0, _⟩ => show win1_1.index t (0 : Fin 2) * 1 + 1 * 0 = 0; omega
    | ⟨1, _⟩ => show win1_1.index t (1 : Fin 2) * 32 + 1 * (y 1).val = win1_4.index t (1 : Fin 2) * 32 + 1 * (y 1).val; omega
  rw [h0, h1]
  rfl

/-- What point t writes back to the projected array is block t of `projected` of the arrays the launch found. -/
theorem flushed_projected (c : Dev nD) (t : Fin cfg1.N) :
    (dat1 V c).flushed 5 t = ((cfg1.win 5).blk t).view.read (Elt Ideal) (projected (V c main_v40) (V c main_v42) (V c main_arg4) (V c main_v43)) := by
  show (cfg1.win 5).cut (grid1.coords t) ((dat1 V c).after 5 t) = _
  rw [after1_5]
  unfold out1_5
  rw [View.canon_unit_zero zero_offsets]
  simp only [View.ld_unit_zero (S := S10000x32) zero_offsets, View.ld_unit_zero (S := S1x32) zero_offsets, View.ld_unit_zero (S := S32x32) zero_offsets, View.ld_unit_zero (S := S1x32) zero_offsets]
  obtain ⟨e0, e4, e1, e2, e3, e5, e6, e7, e8, e9, e10⟩ := block_places t
  funext y
  show k1_pay2 (iblk1 V c 0 t) (iblk1 V c 1 t) (iblk1 V c 2 t) (iblk1 V c 3 t) y
    = projected (V c main_v40) (V c main_v42) (V c main_arg4) (V c main_v43) (((cfg1.win 5).blk t).view.emb y)
  refine (projected_apply _ _ _ _ y).trans ?_
  have hy0 : (y 0).val < 10000 := (y 0).isLt
  have hy1 : (y 1).val < 32 := (y 1).isLt
  have h3 : iblk1 V c 3 t (ix2 (0 : Fin 1) (y 1)) = V c main_v43 (ix2 (0 : Fin 1) ((((cfg1.win 5).blk t).view.emb y) 1)) := by
    show V c main_v43 (((cfg1.win 3).blk t).view.emb (ix2 (0 : Fin 1) (y 1))) = _
    refine congrArg _ (funext fun a => Fin.ext ?_)
    match a with
    | ⟨0, _⟩ => show win1_3.index t (0 : Fin 2) * 1 + 1 * 0 = 0; omega
    | ⟨1, _⟩ => show win1_3.index t (1 : Fin 2) * 32 + 1 * (y 1).val = win1_5.index t (1 : Fin 2) * 32 + 1 * (y 1).val; omega
  unfold projected
  refine congrArg₂ (· + ·) (Finset.sum_congr rfl fun k _ => ?_) h3
  have hk : k.val < 32 := k.isLt
  have h0 : iblk1 V c 0 t (ix2 (y 0) k) = V c main_v40 (ix2 ((((cfg1.win 5).blk t).view.emb y) 0) k) := by
    show V c main_v40 (((cfg1.win 0).blk t).view.emb (ix2 (y 0) k)) = _
    refine congrArg _ (funext fun a => Fin.ext ?_)
    match a with
    | ⟨0, _⟩ => show win1_0.index t (0 : Fin 2) * 10000 + 1 * (y 0).val = win1_5.index t (0 : Fin 2) * 10000 + 1 * (y 0).val; omega
    | ⟨1, _⟩ => show win1_0.index t (1 : Fin 2) * 32 + 1 * k.val = k.val; omega
  have h1 : iblk1 V c 1 t (ix2 (0 : Fin 1) k) = V c main_v42 (ix2 (0 : Fin 1) k) := by
    show V c main_v42 (((cfg1.win 1).blk t).view.emb (ix2 (0 : Fin 1) k)) = _
    refine congrArg _ (funext fun a => Fin.ext ?_)
    match a with
    | ⟨0, _⟩ => show win1_1.index t (0 : Fin 2) * 1 + 1 * 0 = 0; omega
    | ⟨1, _⟩ => show win1_1.index t (1 : Fin 2) * 32 + 1 * k.val = k.val; omega
  have h2 : iblk1 V c 2 t (ix2 k (y 1)) = V c main_arg4 (ix2 k ((((cfg1.win 5).blk t).view.emb y) 1)) := by
    show V c main_arg4 (((cfg1.win 2).blk t).view.emb (ix2 k (y 1))) = _
    refine congrArg _ (funext fun a => Fin.ext ?_)
    match a with
    | ⟨0, _⟩ => show win1_2.index t (0 : Fin 2) * 32 + 1 * k.val = k.val; omega
    | ⟨1, _⟩ => show win1_2.index t (1 : Fin 2) * 32 + 1 * (y 1).val = win1_5.index t (1 : Fin 2) * 32 + 1 * (y 1).val; omega
  rw [h0, h1, h2]

/-- An index is in point t's block of the hidden array iff each coordinate is in the block's range. -/
theorem mem_block_hidden (t : Fin cfg1.N) (i : S100000x32.Idx) :
    i ∈ ((cfg1.win 4).blk t).view.set ↔ ∀ a : Fin 2, win1_4.index t a * S10000x32.size a ≤ (i a).val ∧ (i a).val < win1_4.index t a * S10000x32.size a + S10000x32.size a := by
  show i ∈ ((View.whole main_v44_0).slice (win1_4.rect t)).set ↔ _
  rw [View.set_slice_whole, Rect.mem_set_unit]
  exact Iff.rfl

/-- The same for the projected array. -/
theorem mem_block_projected (t : Fin cfg1.N) (i : S100000x32.Idx) :
    i ∈ ((cfg1.win 5).blk t).view.set ↔ ∀ a : Fin 2, win1_5.index t a * S10000x32.size a ≤ (i a).val ∧ (i a).val < win1_5.index t a * S10000x32.size a + S10000x32.size a := by
  show i ∈ ((View.whole main_v44_1).slice (win1_5.rect t)).set ↔ _
  rw [View.set_slice_whole, Rect.mem_set_unit]
  exact Iff.rfl

/-- Row r lies in row block r / 10000: the blocks cover the hidden array. -/
theorem covered_hidden (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  obtain ⟨t, ht, -⟩ := block_onto ⟨(i 0).val / 10000, by omega⟩
  have q0 : win1_4.index t (0 : Fin 2) = (i 0).val / 10000 := congrFun ht 0
  have q1 : win1_4.index t (1 : Fin 2) = 0 := congrFun ht 1
  refine ⟨t, flush1_4 t, ?_⟩
  rw [mem_block_hidden]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 32 ≤ (i 1).val ∧ (i 1).val < win1_4.index t (1 : Fin 2) * 32 + 32; omega

/-- And the projected array. -/
theorem covered_projected (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  obtain ⟨t, -, ht⟩ := block_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_block_projected]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 32 ≤ (i 1).val ∧ (i 1).val < win1_5.index t (1 : Fin 2) * 32 + 32; omega

/-- After the launch the hidden array is `hidden` of the messages and the bias row the launch found. -/
theorem final_hidden (c : Dev nD) : (dat1 V c).arrAt 4 cfg1.N = hidden (V c main_v40) (V c main_v42) :=
  (dat1 V c).arrAt_eq_of_cover 4 (hidden (V c main_v40) (V c main_v42)) (fun t _ => flushed_hidden V c t) (covered_hidden)

/-- After the launch the projected array is `projected` of the four arrays the launch found. -/
theorem final_projected (c : Dev nD) :
    (dat1 V c).arrAt 5 cfg1.N = projected (V c main_v40) (V c main_v42) (V c main_arg4) (V c main_v43) :=
  (dat1 V c).arrAt_eq_of_cover 5 (projected (V c main_v40) (V c main_v42) (V c main_arg4) (V c main_v43)) (fun t _ => flushed_projected V c t) (covered_projected)

end Cert.KernelIdeal.LayerOne

end
-- ==== Proof.LayerTwo.lean ====
/-
  The second hidden layer and the projection that follows it. The launch tiles the aggregated messages
  a : [100000, 32] into ten blocks of 10000 rows and keeps the bias row b : [1, 32], the weight W₃ : [32, 16] and a second
  bias row b' : [1, 16] whole. In each row block it stores  h = tanh(a + b)  (the bias added to every row) and
  h · W₃ + b'  (the product accumulated from zero, then the second bias added to every row). On the extended reals the
  second array's entry at (r, j) is  (Σ_k tanh(a[r, k] + b[0, k]) · W₃[k, j]) + b'[0, j] : narrowing h and the weight to a
  shorter float format changes nothing there, and a sum added to zero is the sum. The ten row blocks tile both results,
  so after the launch the two arrays hold these functions of the arrays the launch found, index by index.
-/
import proofs.«144924_j60344290508978_1_alg».proof.Proof.Gen.KernelIdeal.Frame
import proofs.«144924_j60344290508978_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.LayerTwo

open Idealize.ShloMosaic Idealize.ShloMosaic.TcCoe Idealize.SL.Sem
open Idealize.ShloMosaic.Pipeline (Dat)
open Idealize.ShloMosaic.ValueIdx
open Cert.KernelIdeal Cert.KernelIdeal.Gen

/-! ## The block's two stores at an entry -/

/-- The hidden block: tanh of the message entry plus the bias of its column. -/
theorem hidden_apply (x0 : Vec Ideal S10000x32 .f32) (x1 : Vec Ideal S1x32 .f32) (z : S10000x32.Idx) :
    k2_pay1 x0 x1 z = Ideal.tanh (x0 z + x1 (ix2 (0 : Fin 1) (z 1))) := by
  unfold k2_pay1
  show Ideal.tanh (shapeCast S10000x32 x0 shapeCasts_S10000x32_S10000x32 z + broadcastTo S10000x32 (shapeCast S1x32 x1 shapeCasts_S1x32_S1x32) broadcasts_S1x32_S10000x32 z) = _
  rw [shapeCast_self, shapeCast_self]
  rw [broadcastTo_apply x1 broadcasts_S1x32_S10000x32 z (ix2 (0 : Fin 1) (z 1)) (fun a => by
    match a with
    | ⟨0, _⟩ => rfl
    | ⟨1, _⟩ => rfl)]

theorem lhs_row (y : S10000x16.Idx) (q : dot_S10000x32_S32x16_S10000x16_1_0_0_1_n_n.contr.Idx) : (dot_S10000x32_S32x16_S10000x16_1_0_0_1_n_n.lhsIdx y q 0).val = (y 0).val := by
  unfold DotDims.lhsIdx
  rw [dif_neg (show ¬(0 : Fin S10000x32.rank) ∈ dot_S10000x32_S32x16_S10000x16_1_0_0_1_n_n.lhsBatch by decide), dif_pos (show (0 : Fin S10000x32.rank) ∈ dot_S10000x32_S32x16_S10000x16_1_0_0_1_n_n.lhsNonContracting by decide)]
  rfl
theorem lhs_col (y : S10000x16.Idx) (q : dot_S10000x32_S32x16_S10000x16_1_0_0_1_n_n.contr.Idx) : (dot_S10000x32_S32x16_S10000x16_1_0_0_1_n_n.lhsIdx y q 1).val = (q ⟨0, by decide⟩).val :=
  dot_S10000x32_S32x16_S10000x16_1_0_0_1_n_n.lhsIdx_val_of_single rfl y q
theorem rhs_row (y : S10000x16.Idx) (q : dot_S10000x32_S32x16_S10000x16_1_0_0_1_n_n.contr.Idx) : (dot_S10000x32_S32x16_S10000x16_1_0_0_1_n_n.rhsIdx y q 0).val = (q ⟨0, by decide⟩).val :=
  dot_S10000x32_S32x16_S10000x16_1_0_0_1_n_n.rhsIdx_val_of_single rfl y q
theorem rhs_col (y : S10000x16.Idx) (q : dot_S10000x32_S32x16_S10000x16_1_0_0_1_n_n.contr.Idx) : (dot_S10000x32_S32x16_S10000x16_1_0_0_1_n_n.rhsIdx y q 1).val = (y 1).val := by
  unfold DotDims.rhsIdx
  rw [dif_neg (show ¬(1 : Fin S32x16.rank) ∈ dot_S10000x32_S32x16_S10000x16_1_0_0_1_n_n.rhsBatch by decide), dif_pos (show (1 : Fin S32x16.rank) ∈ dot_S10000x32_S32x16_S10000x16_1_0_0_1_n_n.rhsNonContracting by decide)]
  rfl

/-- The projected block: the sum over the 32 shared coordinates of hidden entry times weight entry, plus the second
    bias of the column. -/
theorem projected_apply (x0 : Vec Ideal S10000x32 .f32) (x1 : Vec Ideal S1x32 .f32) (x2 : Vec Ideal S32x16 .f32) (x3 : Vec Ideal S1x16 .f32) (y : S10000x16.Idx) :
    k2_pay2 x0 x1 x2 x3 y
      = (∑ k : Fin 32, Ideal.tanh (x0 (ix2 (y 0) k) + x1 (ix2 (0 : Fin 1) k)) * x2 (ix2 k (y 1))) + x3 (ix2 (0 : Fin 1) (y 1)) := by
  unfold k2_pay2
  show FloatOps.matmul dot_S10000x32_S32x16_S10000x16_1_0_0_1_n_n none (truncf .bf16 (k2_pay1 x0 x1) bitsLt_bf16_f32) (truncf .bf16 x2 bitsLt_bf16_f32) (constant S10000x16 .f32 0x00000000#32) y
      + broadcastTo S10000x16 (shapeCast S1x16 x3 shapeCasts_S1x16_S1x16) broadcasts_S1x16_S10000x16 y = _
  rw [shapeCast_self]
  rw [broadcastTo_apply x3 broadcasts_S1x16_S10000x16 y (ix2 (0 : Fin 1) (y 1)) (fun a => by
    match a with
    | ⟨0, _⟩ => rfl
    | ⟨1, _⟩ => rfl)]
  refine congrArg (· + x3 (ix2 (0 : Fin 1) (y 1))) ?_
  refine (Ideal.matmul_constant_zero_apply dot_S10000x32_S32x16_S10000x16_1_0_0_1_n_n none _ _ y).trans ?_
  rw [← Equiv.sum_comp (ValueIdx.contrEquiv1 dot_S10000x32_S32x16_S10000x16_1_0_0_1_n_n 32 rfl rfl).symm]
  refine Finset.sum_congr rfl fun k _ => ?_
  have hk := ValueIdx.contrEquiv1_symm_val dot_S10000x32_S32x16_S10000x16_1_0_0_1_n_n 32 rfl rfl k
  have el : dot_S10000x32_S32x16_S10000x16_1_0_0_1_n_n.lhsIdx y ((ValueIdx.contrEquiv1 dot_S10000x32_S32x16_S10000x16_1_0_0_1_n_n 32 rfl rfl).symm k) = ix2 (y 0) k := funext fun a => Fin.ext (by
    match a with
    | ⟨0, _⟩ => exact lhs_row _ _
    | ⟨1, _⟩ => exact (lhs_col _ _).trans hk)
  have er : dot_S10000x32_S32x16_S10000x16_1_0_0_1_n_n.rhsIdx y ((ValueIdx.contrEquiv1 dot_S10000x32_S32x16_S10000x16_1_0_0_1_n_n 32 rfl rfl).symm k) = ix2 k (y 1) := funext fun a => Fin.ext (by
    match a with
    | ⟨0, _⟩ => exact (rhs_row _ _).trans hk
    | ⟨1, _⟩ => exact rhs_col _ _)
  rw [el, er]
  show k2_pay1 x0 x1 (ix2 (y 0) k) * x2 (ix2 k (y 1)) = _
  rw [hidden_apply]

/-! ## From the ten row blocks to the two arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the blocks sit: the messages' and both results' blocks at point t start at row block t, column block 0; the two
    bias rows and the weight are whole. -/
theorem block_places : ∀ t : Fin cfg2.N, win2_0.index t (0 : Fin 2) = win2_5.index t (0 : Fin 2)
    ∧ win2_4.index t (0 : Fin 2) = win2_5.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 ∧ win2_5.index t (1 : Fin 2) = 0 :=
  (by decide +kernel : ∀ t : Fin grid2.N, _)

/-- Every one of the ten row blocks is some point's, for both results. -/
theorem block_onto : ∀ q : Fin 10, ∃ t : Fin cfg2.N, win2_4.index t = ![q.val, 0] ∧ win2_5.index t = ![q.val, 0] :=
  (by decide +kernel : ∀ q : Fin 10, ∃ t : Fin grid2.N, win2_4.index t = ![q.val, 0] ∧ win2_5.index t = ![q.val, 0])

/-- The hidden layer as one function of the messages and the bias row. -/
def hidden (a : S100000x32.Idx → EReal) (b : S1x32.Idx → EReal) : S100000x32.Idx → EReal :=
  fun i => Ideal.tanh (a i + b (ix2 (0 : Fin 1) (i 1)))

/-- The projection of the hidden layer as one function of the messages, the bias row, the weight and the second bias row. -/
def projected (a : S100000x32.Idx → EReal) (b : S1x32.Idx → EReal) (w : S32x16.Idx → EReal) (b' : S1x16.Idx → EReal) : S100000x16.Idx → EReal :=
  fun i => (∑ k : Fin 32, Ideal.tanh (a (ix2 (i 0) k) + b (ix2 (0 : Fin 1) k)) * w (ix2 k (i 1))) + b' (ix2 (0 : Fin 1) (i 1))

/-- What point t writes back to the hidden array is block t of `hidden` of the arrays the launch found. -/
theorem flushed_hidden (c : Dev nD) (t : Fin cfg2.N) :
    (dat2 V c).flushed 4 t = ((cfg2.win 4).blk t).view.read (Elt Ideal) (hidden (V c main_v57) (V c main_v59)) := by
  show (cfg2.win 4).cut (grid2.coords t) ((dat2 V c).after 4 t) = _
  rw [after2_4]
  unfold out2_4
  rw [View.canon_unit_zero zero_offsets]
  simp only [View.ld_unit_zero (S := S10000x32) zero_offsets, View.ld_unit_zero (S := S1x32) zero_offsets]
  obtain ⟨e0, e4, e1, e2, e3, e5, e6, e7, e8, e9, e10⟩ := block_places t
  funext y
  show k2_pay1 (iblk2 V c 0 t) (iblk2 V c 1 t) y = hidden (V c main_v57) (V c main_v59) (((cfg2.win 4).blk t).view.emb y)
  refine (hidden_apply _ _ y).trans ?_
  have hy0 : (y 0).val < 10000 := (y 0).isLt
  have hy1 : (y 1).val < 32 := (y 1).isLt
  have h0 : iblk2 V c 0 t y = V c main_v57 (((cfg2.win 4).blk t).view.emb y) := by
    show V c main_v57 (((cfg2.win 0).blk t).view.emb y) = _
    refine congrArg _ (funext fun a => Fin.ext ?_)
    match a with
    | ⟨0, _⟩ => show win2_0.index t (0 : Fin 2) * 10000 + 1 * (y 0).val = win2_4.index t (0 : Fin 2) * 10000 + 1 * (y 0).val; omega
    | ⟨1, _⟩ => show win2_0.index t (1 : Fin 2) * 32 + 1 * (y 1).val = win2_4.index t (1 : Fin 2) * 32 + 1 * (y 1).val; omega
  have h1 : iblk2 V c 1 t (ix2 (0 : Fin 1) (y 1)) = V c main_v59 (ix2 (0 : Fin 1) ((((cfg2.win 4).blk t).view.emb y) 1)) := by
    show V c main_v59 (((cfg2.win 1).blk t).view.emb (ix2 (0 : Fin 1) (y 1))) = _
    refine congrArg _ (funext fun a => Fin.ext ?_)
    match a with
    | ⟨0, _⟩ => show win2_1.index t (0 : Fin 2) * 1 + 1 * 0 = 0; omega
    | ⟨1, _⟩ => show win2_1.index t (1 : Fin 2) * 32 + 1 * (y 1).val = win2_4.index t (1 : Fin 2) * 32 + 1 * (y 1).val; omega
  rw [h0, h1]
  rfl

/-- What point t writes back to the projected array is block t of `projected` of the arrays the launch found. -/
theorem flushed_projected (c : Dev nD) (t : Fin cfg2.N) :
    (dat2 V c).flushed 5 t = ((cfg2.win 5).blk t).view.read (Elt Ideal) (projected (V c main_v57) (V c main_v59) (V c main_arg6) (V c main_v60)) := by
  show (cfg2.win 5).cut (grid2.coords t) ((dat2 V c).after 5 t) = _
  rw [after2_5]
  unfold out2_5
  rw [View.canon_unit_zero zero_offsets]
  simp only [View.ld_unit_zero (S := S10000x32) zero_offsets, View.ld_unit_zero (S := S1x32) zero_offsets, View.ld_unit_zero (S := S32x16) zero_offsets, View.ld_unit_zero (S := S1x16) zero_offsets]
  obtain ⟨e0, e4, e1, e2, e3, e5, e6, e7, e8, e9, e10⟩ := block_places t
  funext y
  show k2_pay2 (iblk2 V c 0 t) (iblk2 V c 1 t) (iblk2 V c 2 t) (iblk2 V c 3 t) y
    = projected (V c main_v57) (V c main_v59) (V c main_arg6) (V c main_v60) (((cfg2.win 5).blk t).view.emb y)
  refine (projected_apply _ _ _ _ y).trans ?_
  have hy0 : (y 0).val < 10000 := (y 0).isLt
  have hy1 : (y 1).val < 16 := (y 1).isLt
  have h3 : iblk2 V c 3 t (ix2 (0 : Fin 1) (y 1)) = V c main_v60 (ix2 (0 : Fin 1) ((((cfg2.win 5).blk t).view.emb y) 1)) := by
    show V c main_v60 (((cfg2.win 3).blk t).view.emb (ix2 (0 : Fin 1) (y 1))) = _
    refine congrArg _ (funext fun a => Fin.ext ?_)
    match a with
    | ⟨0, _⟩ => show win2_3.index t (0 : Fin 2) * 1 + 1 * 0 = 0; omega
    | ⟨1, _⟩ => show win2_3.index t (1 : Fin 2) * 16 + 1 * (y 1).val = win2_5.index t (1 : Fin 2) * 16 + 1 * (y 1).val; omega
  unfold projected
  refine congrArg₂ (· + ·) (Finset.sum_congr rfl fun k _ => ?_) h3
  have hk : k.val < 32 := k.isLt
  have h0 : iblk2 V c 0 t (ix2 (y 0) k) = V c main_v57 (ix2 ((((cfg2.win 5).blk t).view.emb y) 0) k) := by
    show V c main_v57 (((cfg2.win 0).blk t).view.emb (ix2 (y 0) k)) = _
    refine congrArg _ (funext fun a => Fin.ext ?_)
    match a with
    | ⟨0, _⟩ => show win2_0.index t (0 : Fin 2) * 10000 + 1 * (y 0).val = win2_5.index t (0 : Fin 2) * 10000 + 1 * (y 0).val; omega
    | ⟨1, _⟩ => show win2_0.index t (1 : Fin 2) * 32 + 1 * k.val = k.val; omega
  have h1 : iblk2 V c 1 t (ix2 (0 : Fin 1) k) = V c main_v59 (ix2 (0 : Fin 1) k) := by
    show V c main_v59 (((cfg2.win 1).blk t).view.emb (ix2 (0 : Fin 1) k)) = _
    refine congrArg _ (funext fun a => Fin.ext ?_)
    match a with
    | ⟨0, _⟩ => show win2_1.index t (0 : Fin 2) * 1 + 1 * 0 = 0; omega
    | ⟨1, _⟩ => show win2_1.index t (1 : Fin 2) * 32 + 1 * k.val = k.val; omega
  have h2 : iblk2 V c 2 t (ix2 k (y 1)) = V c main_arg6 (ix2 k ((((cfg2.win 5).blk t).view.emb y) 1)) := by
    show V c main_arg6 (((cfg2.win 2).blk t).view.emb (ix2 k (y 1))) = _
    refine congrArg _ (funext fun a => Fin.ext ?_)
    match a with
    | ⟨0, _⟩ => show win2_2.index t (0 : Fin 2) * 32 + 1 * k.val = k.val; omega
    | ⟨1, _⟩ => show win2_2.index t (1 : Fin 2) * 16 + 1 * (y 1).val = win2_5.index t (1 : Fin 2) * 16 + 1 * (y 1).val; omega
  rw [h0, h1, h2]

/-- An index is in point t's block of the hidden array iff each coordinate is in the block's range. -/
theorem mem_block_hidden (t : Fin cfg2.N) (i : S100000x32.Idx) :
    i ∈ ((cfg2.win 4).blk t).view.set ↔ ∀ a : Fin 2, win2_4.index t a * S10000x32.size a ≤ (i a).val ∧ (i a).val < win2_4.index t a * S10000x32.size a + S10000x32.size a := by
  show i ∈ ((View.whole main_v61_0).slice (win2_4.rect t)).set ↔ _
  rw [View.set_slice_whole, Rect.mem_set_unit]
  exact Iff.rfl

/-- The same for the projected array. -/
theorem mem_block_projected (t : Fin cfg2.N) (i : S100000x16.Idx) :
    i ∈ ((cfg2.win 5).blk t).view.set ↔ ∀ a : Fin 2, win2_5.index t a * S10000x16.size a ≤ (i a).val ∧ (i a).val < win2_5.index t a * S10000x16.size a + S10000x16.size a := by
  show i ∈ ((View.whole main_v61_1).slice (win2_5.rect t)).set ↔ _
  rw [View.set_slice_whole, Rect.mem_set_unit]
  exact Iff.rfl

/-- Row r lies in row block r / 10000: the blocks cover the hidden array. -/
theorem covered_hidden (i : S100000x32.Idx) :
    ∃ t : Fin cfg2.N, (cfg2.win 4).flush t = true ∧ i ∈ ((cfg2.win 4).blk t).view.set := by
  have hi0 : (i 0).val < 100000 := (i 0).isLt
  have hi1 : (i 1).val < 32 := (i 1).isLt
  obtain ⟨t, ht, -⟩ := block_onto ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_block_hidden]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 32 ≤ (i 1).val ∧ (i 1).val < win2_4.index t (1 : Fin 2) * 32 + 32; omega

/-- And the projected array. -/
theorem covered_projected (i : S100000x16.Idx) :
    ∃ t : Fin cfg2.N, (cfg2.win 5).flush t = true ∧ i ∈ ((cfg2.win 5).blk t).view.set := by
  have hi0 : (i 0).val < 100000 := (i 0).isLt
  have hi1 : (i 1).val < 16 := (i 1).isLt
  obtain ⟨t, -, ht⟩ := block_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_block_projected]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 16 ≤ (i 1).val ∧ (i 1).val < win2_5.index t (1 : Fin 2) * 16 + 16; omega

/-- After the launch the hidden array is `hidden` of the messages and the bias row the launch found. -/
theorem final_hidden (c : Dev nD) : (dat2 V c).arrAt 4 cfg2.N = hidden (V c main_v57) (V c main_v59) :=
  (dat2 V c).arrAt_eq_of_cover 4 (hidden (V c main_v57) (V c main_v59)) (fun t _ => flushed_hidden V c t) (covered_hidden)

/-- After the launch the projected array is `projected` of the four arrays the launch found. -/
theorem final_projected (c : Dev nD) :
    (dat2 V c).arrAt 5 cfg2.N = projected (V c main_v57) (V c main_v59) (V c main_arg6) (V c main_v60) :=
  (dat2 V c).arrAt_eq_of_cover 5 (projected (V c main_v57) (V c main_v59) (V c main_arg6) (V c main_v60)) (fun t _ => flushed_projected V c t) (covered_projected)

end Cert.KernelIdeal.LayerTwo

end
-- ==== Proof.LayerThree.lean ====
/-
  The third hidden layer and the projection that follows it. The launch tiles the aggregated messages
  a : [100000, 16] into ten blocks of 10000 rows and keeps the bias row b : [1, 16], the weight W_c : [16, 8] and a second
  bias row b' : [1, 8] whole. In each row block it stores  h = tanh(a + b)  (the bias added to every row) and
  h · W_c + b'  (the product accumulated from zero, then the second bias added to every row). On the extended reals the
  second array's entry at (r, j) is  (Σ_k tanh(a[r, k] + b[0, k]) · W_c[k, j]) + b'[0, j] : narrowing h and the weight to a
  shorter float format changes nothing there, and a sum added to zero is the sum. The ten row blocks tile both results,
  so after the launch the two arrays hold these functions of the arrays the launch found, index by index.
-/
import proofs.«144924_j60344290508978_1_alg».proof.Proof.Gen.KernelIdeal.Frame
import proofs.«144924_j60344290508978_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.LayerThree

open Idealize.ShloMosaic Idealize.ShloMosaic.TcCoe Idealize.SL.Sem
open Idealize.ShloMosaic.Pipeline (Dat)
open Idealize.ShloMosaic.ValueIdx
open Cert.KernelIdeal Cert.KernelIdeal.Gen

/-! ## The block's two stores at an entry -/

/-- The hidden block: tanh of the message entry plus the bias of its column. -/
theorem hidden_apply (x0 : Vec Ideal S10000x16 .f32) (x1 : Vec Ideal S1x16 .f32) (z : S10000x16.Idx) :
    k3_pay1 x0 x1 z = Ideal.tanh (x0 z + x1 (ix2 (0 : Fin 1) (z 1))) := by
  unfold k3_pay1
  show Ideal.tanh (shapeCast S10000x16 x0 shapeCasts_S10000x16_S10000x16 z + broadcastTo S10000x16 (shapeCast S1x16 x1 shapeCasts_S1x16_S1x16) broadcasts_S1x16_S10000x16 z) = _
  rw [shapeCast_self, shapeCast_self]
  rw [broadcastTo_apply x1 broadcasts_S1x16_S10000x16 z (ix2 (0 : Fin 1) (z 1)) (fun a => by
    match a with
    | ⟨0, _⟩ => rfl
    | ⟨1, _⟩ => rfl)]

theorem lhs_row (y : S10000x8.Idx) (q : dot_S10000x16_S16x8_S10000x8_1_0_0_1_n_n.contr.Idx) : (dot_S10000x16_S16x8_S10000x8_1_0_0_1_n_n.lhsIdx y q 0).val = (y 0).val := by
  unfold DotDims.lhsIdx
  rw [dif_neg (show ¬(0 : Fin S10000x16.rank) ∈ dot_S10000x16_S16x8_S10000x8_1_0_0_1_n_n.lhsBatch by decide), dif_pos (show (0 : Fin S10000x16.rank) ∈ dot_S10000x16_S16x8_S10000x8_1_0_0_1_n_n.lhsNonContracting by decide)]
  rfl
theorem lhs_col (y : S10000x8.Idx) (q : dot_S10000x16_S16x8_S10000x8_1_0_0_1_n_n.contr.Idx) : (dot_S10000x16_S16x8_S10000x8_1_0_0_1_n_n.lhsIdx y q 1).val = (q ⟨0, by decide⟩).val :=
  dot_S10000x16_S16x8_S10000x8_1_0_0_1_n_n.lhsIdx_val_of_single rfl y q
theorem rhs_row (y : S10000x8.Idx) (q : dot_S10000x16_S16x8_S10000x8_1_0_0_1_n_n.contr.Idx) : (dot_S10000x16_S16x8_S10000x8_1_0_0_1_n_n.rhsIdx y q 0).val = (q ⟨0, by decide⟩).val :=
  dot_S10000x16_S16x8_S10000x8_1_0_0_1_n_n.rhsIdx_val_of_single rfl y q
theorem rhs_col (y : S10000x8.Idx) (q : dot_S10000x16_S16x8_S10000x8_1_0_0_1_n_n.contr.Idx) : (dot_S10000x16_S16x8_S10000x8_1_0_0_1_n_n.rhsIdx y q 1).val = (y 1).val := by
  unfold DotDims.rhsIdx
  rw [dif_neg (show ¬(1 : Fin S16x8.rank) ∈ dot_S10000x16_S16x8_S10000x8_1_0_0_1_n_n.rhsBatch by decide), dif_pos (show (1 : Fin S16x8.rank) ∈ dot_S10000x16_S16x8_S10000x8_1_0_0_1_n_n.rhsNonContracting by decide)]
  rfl

/-- The projected block: the sum over the 16 shared coordinates of hidden entry times weight entry, plus the second
    bias of the column. -/
theorem projected_apply (x0 : Vec Ideal S10000x16 .f32) (x1 : Vec Ideal S1x16 .f32) (x2 : Vec Ideal S16x8 .f32) (x3 : Vec Ideal S1x8 .f32) (y : S10000x8.Idx) :
    k3_pay2 x0 x1 x2 x3 y
      = (∑ k : Fin 16, Ideal.tanh (x0 (ix2 (y 0) k) + x1 (ix2 (0 : Fin 1) k)) * x2 (ix2 k (y 1))) + x3 (ix2 (0 : Fin 1) (y 1)) := by
  unfold k3_pay2
  show FloatOps.matmul dot_S10000x16_S16x8_S10000x8_1_0_0_1_n_n none (truncf .bf16 (k3_pay1 x0 x1) bitsLt_bf16_f32) (truncf .bf16 x2 bitsLt_bf16_f32) (constant S10000x8 .f32 0x00000000#32) y
      + broadcastTo S10000x8 (shapeCast S1x8 x3 shapeCasts_S1x8_S1x8) broadcasts_S1x8_S10000x8 y = _
  rw [shapeCast_self]
  rw [broadcastTo_apply x3 broadcasts_S1x8_S10000x8 y (ix2 (0 : Fin 1) (y 1)) (fun a => by
    match a with
    | ⟨0, _⟩ => rfl
    | ⟨1, _⟩ => rfl)]
  refine congrArg (· + x3 (ix2 (0 : Fin 1) (y 1))) ?_
  refine (Ideal.matmul_constant_zero_apply dot_S10000x16_S16x8_S10000x8_1_0_0_1_n_n none _ _ y).trans ?_
  rw [← Equiv.sum_comp (ValueIdx.contrEquiv1 dot_S10000x16_S16x8_S10000x8_1_0_0_1_n_n 16 rfl rfl).symm]
  refine Finset.sum_congr rfl fun k _ => ?_
  have hk := ValueIdx.contrEquiv1_symm_val dot_S10000x16_S16x8_S10000x8_1_0_0_1_n_n 16 rfl rfl k
  have el : dot_S10000x16_S16x8_S10000x8_1_0_0_1_n_n.lhsIdx y ((ValueIdx.contrEquiv1 dot_S10000x16_S16x8_S10000x8_1_0_0_1_n_n 16 rfl rfl).symm k) = ix2 (y 0) k := funext fun a => Fin.ext (by
    match a with
    | ⟨0, _⟩ => exact lhs_row _ _
    | ⟨1, _⟩ => exact (lhs_col _ _).trans hk)
  have er : dot_S10000x16_S16x8_S10000x8_1_0_0_1_n_n.rhsIdx y ((ValueIdx.contrEquiv1 dot_S10000x16_S16x8_S10000x8_1_0_0_1_n_n 16 rfl rfl).symm k) = ix2 k (y 1) := funext fun a => Fin.ext (by
    match a with
    | ⟨0, _⟩ => exact (rhs_row _ _).trans hk
    | ⟨1, _⟩ => exact rhs_col _ _)
  rw [el, er]
  show k3_pay1 x0 x1 (ix2 (y 0) k) * x2 (ix2 k (y 1)) = _
  rw [hidden_apply]

/-! ## From the ten row blocks to the two arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- Where the blocks sit: the messages' and both results' blocks at point t start at row block t, column block 0; the two
    bias rows and the weight are whole. -/
theorem block_places : ∀ t : Fin cfg3.N, win3_0.index t (0 : Fin 2) = win3_5.index t (0 : Fin 2)
    ∧ win3_4.index t (0 : Fin 2) = win3_5.index t (0 : Fin 2)
    ∧ win3_0.index t (1 : Fin 2) = 0 ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (1 : Fin 2) = 0 ∧ win3_5.index t (1 : Fin 2) = 0 :=
  (by decide +kernel : ∀ t : Fin grid3.N, _)

/-- Every one of the ten row blocks is some point's, for both results. -/
theorem block_onto : ∀ q : Fin 10, ∃ t : Fin cfg3.N, win3_4.index t = ![q.val, 0] ∧ win3_5.index t = ![q.val, 0] :=
  (by decide +kernel : ∀ q : Fin 10, ∃ t : Fin grid3.N, win3_4.index t = ![q.val, 0] ∧ win3_5.index t = ![q.val, 0])

/-- The hidden layer as one function of the messages and the bias row. -/
def hidden (a : S100000x16.Idx → EReal) (b : S1x16.Idx → EReal) : S100000x16.Idx → EReal :=
  fun i => Ideal.tanh (a i + b (ix2 (0 : Fin 1) (i 1)))

/-- The projection of the hidden layer as one function of the messages, the bias row, the weight and the second bias row. -/
def projected (a : S100000x16.Idx → EReal) (b : S1x16.Idx → EReal) (w : S16x8.Idx → EReal) (b' : S1x8.Idx → EReal) : S100000x8.Idx → EReal :=
  fun i => (∑ k : Fin 16, Ideal.tanh (a (ix2 (i 0) k) + b (ix2 (0 : Fin 1) k)) * w (ix2 k (i 1))) + b' (ix2 (0 : Fin 1) (i 1))

/-- What point t writes back to the hidden array is block t of `hidden` of the arrays the launch found. -/
theorem flushed_hidden (c : Dev nD) (t : Fin cfg3.N) :
    (dat3 V c).flushed 4 t = ((cfg3.win 4).blk t).view.read (Elt Ideal) (hidden (V c main_v74) (V c main_v75)) := by
  show (cfg3.win 4).cut (grid3.coords t) ((dat3 V c).after 4 t) = _
  rw [after3_4]
  unfold out3_4
  rw [View.canon_unit_zero zero_offsets]
  simp only [View.ld_unit_zero (S := S10000x16) zero_offsets, View.ld_unit_zero (S := S1x16) zero_offsets]
  obtain ⟨e0, e4, e1, e2, e3, e5, e6, e7, e8, e9, e10⟩ := block_places t
  funext y
  show k3_pay1 (iblk3 V c 0 t) (iblk3 V c 1 t) y = hidden (V c main_v74) (V c main_v75) (((cfg3.win 4).blk t).view.emb y)
  refine (hidden_apply _ _ y).trans ?_
  have hy0 : (y 0).val < 10000 := (y 0).isLt
  have hy1 : (y 1).val < 16 := (y 1).isLt
  have h0 : iblk3 V c 0 t y = V c main_v74 (((cfg3.win 4).blk t).view.emb y) := by
    show V c main_v74 (((cfg3.win 0).blk t).view.emb y) = _
    refine congrArg _ (funext fun a => Fin.ext ?_)
    match a with
    | ⟨0, _⟩ => show win3_0.index t (0 : Fin 2) * 10000 + 1 * (y 0).val = win3_4.index t (0 : Fin 2) * 10000 + 1 * (y 0).val; omega
    | ⟨1, _⟩ => show win3_0.index t (1 : Fin 2) * 16 + 1 * (y 1).val = win3_4.index t (1 : Fin 2) * 16 + 1 * (y 1).val; omega
  have h1 : iblk3 V c 1 t (ix2 (0 : Fin 1) (y 1)) = V c main_v75 (ix2 (0 : Fin 1) ((((cfg3.win 4).blk t).view.emb y) 1)) := by
    show V c main_v75 (((cfg3.win 1).blk t).view.emb (ix2 (0 : Fin 1) (y 1))) = _
    refine congrArg _ (funext fun a => Fin.ext ?_)
    match a with
    | ⟨0, _⟩ => show win3_1.index t (0 : Fin 2) * 1 + 1 * 0 = 0; omega
    | ⟨1, _⟩ => show win3_1.index t (1 : Fin 2) * 16 + 1 * (y 1).val = win3_4.index t (1 : Fin 2) * 16 + 1 * (y 1).val; omega
  rw [h0, h1]
  rfl

/-- What point t writes back to the projected array is block t of `projected` of the arrays the launch found. -/
theorem flushed_projected (c : Dev nD) (t : Fin cfg3.N) :
    (dat3 V c).flushed 5 t = ((cfg3.win 5).blk t).view.read (Elt Ideal) (projected (V c main_v74) (V c main_v75) (V c main_arg8) (V c main_v76)) := by
  show (cfg3.win 5).cut (grid3.coords t) ((dat3 V c).after 5 t) = _
  rw [after3_5]
  unfold out3_5
  rw [View.canon_unit_zero zero_offsets]
  simp only [View.ld_unit_zero (S := S10000x16) zero_offsets, View.ld_unit_zero (S := S1x16) zero_offsets, View.ld_unit_zero (S := S16x8) zero_offsets, View.ld_unit_zero (S := S1x8) zero_offsets]
  obtain ⟨e0, e4, e1, e2, e3, e5, e6, e7, e8, e9, e10⟩ := block_places t
  funext y
  show k3_pay2 (iblk3 V c 0 t) (iblk3 V c 1 t) (iblk3 V c 2 t) (iblk3 V c 3 t) y
    = projected (V c main_v74) (V c main_v75) (V c main_arg8) (V c main_v76) (((cfg3.win 5).blk t).view.emb y)
  refine (projected_apply _ _ _ _ y).trans ?_
  have hy0 : (y 0).val < 10000 := (y 0).isLt
  have hy1 : (y 1).val < 8 := (y 1).isLt
  have h3 : iblk3 V c 3 t (ix2 (0 : Fin 1) (y 1)) = V c main_v76 (ix2 (0 : Fin 1) ((((cfg3.win 5).blk t).view.emb y) 1)) := by
    show V c main_v76 (((cfg3.win 3).blk t).view.emb (ix2 (0 : Fin 1) (y 1))) = _
    refine congrArg _ (funext fun a => Fin.ext ?_)
    match a with
    | ⟨0, _⟩ => show win3_3.index t (0 : Fin 2) * 1 + 1 * 0 = 0; omega
    | ⟨1, _⟩ => show win3_3.index t (1 : Fin 2) * 8 + 1 * (y 1).val = win3_5.index t (1 : Fin 2) * 8 + 1 * (y 1).val; omega
  unfold projected
  refine congrArg₂ (· + ·) (Finset.sum_congr rfl fun k _ => ?_) h3
  have hk : k.val < 16 := k.isLt
  have h0 : iblk3 V c 0 t (ix2 (y 0) k) = V c main_v74 (ix2 ((((cfg3.win 5).blk t).view.emb y) 0) k) := by
    show V c main_v74 (((cfg3.win 0).blk t).view.emb (ix2 (y 0) k)) = _
    refine congrArg _ (funext fun a => Fin.ext ?_)
    match a with
    | ⟨0, _⟩ => show win3_0.index t (0 : Fin 2) * 10000 + 1 * (y 0).val = win3_5.index t (0 : Fin 2) * 10000 + 1 * (y 0).val; omega
    | ⟨1, _⟩ => show win3_0.index t (1 : Fin 2) * 16 + 1 * k.val = k.val; omega
  have h1 : iblk3 V c 1 t (ix2 (0 : Fin 1) k) = V c main_v75 (ix2 (0 : Fin 1) k) := by
    show V c main_v75 (((cfg3.win 1).blk t).view.emb (ix2 (0 : Fin 1) k)) = _
    refine congrArg _ (funext fun a => Fin.ext ?_)
    match a with
    | ⟨0, _⟩ => show win3_1.index t (0 : Fin 2) * 1 + 1 * 0 = 0; omega
    | ⟨1, _⟩ => show win3_1.index t (1 : Fin 2) * 16 + 1 * k.val = k.val; omega
  have h2 : iblk3 V c 2 t (ix2 k (y 1)) = V c main_arg8 (ix2 k ((((cfg3.win 5).blk t).view.emb y) 1)) := by
    show V c main_arg8 (((cfg3.win 2).blk t).view.emb (ix2 k (y 1))) = _
    refine congrArg _ (funext fun a => Fin.ext ?_)
    match a with
    | ⟨0, _⟩ => show win3_2.index t (0 : Fin 2) * 16 + 1 * k.val = k.val; omega
    | ⟨1, _⟩ => show win3_2.index t (1 : Fin 2) * 8 + 1 * (y 1).val = win3_5.index t (1 : Fin 2) * 8 + 1 * (y 1).val; omega
  rw [h0, h1, h2]

/-- An index is in point t's block of the hidden array iff each coordinate is in the block's range. -/
theorem mem_block_hidden (t : Fin cfg3.N) (i : S100000x16.Idx) :
    i ∈ ((cfg3.win 4).blk t).view.set ↔ ∀ a : Fin 2, win3_4.index t a * S10000x16.size a ≤ (i a).val ∧ (i a).val < win3_4.index t a * S10000x16.size a + S10000x16.size a := by
  show i ∈ ((View.whole main_v77_0).slice (win3_4.rect t)).set ↔ _
  rw [View.set_slice_whole, Rect.mem_set_unit]
  exact Iff.rfl

/-- The same for the projected array. -/
theorem mem_block_projected (t : Fin cfg3.N) (i : S100000x8.Idx) :
    i ∈ ((cfg3.win 5).blk t).view.set ↔ ∀ a : Fin 2, win3_5.index t a * S10000x8.size a ≤ (i a).val ∧ (i a).val < win3_5.index t a * S10000x8.size a + S10000x8.size a := by
  show i ∈ ((View.whole main_v77_1).slice (win3_5.rect t)).set ↔ _
  rw [View.set_slice_whole, Rect.mem_set_unit]
  exact Iff.rfl

/-- Row r lies in row block r / 10000: the blocks cover the hidden array. -/
theorem covered_hidden (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  obtain ⟨t, ht, -⟩ := block_onto ⟨(i 0).val / 10000, by omega⟩
  have q0 : win3_4.index t (0 : Fin 2) = (i 0).val / 10000 := congrFun ht 0
  have q1 : win3_4.index t (1 : Fin 2) = 0 := congrFun ht 1
  refine ⟨t, flush3_4 t, ?_⟩
  rw [mem_block_hidden]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 16 ≤ (i 1).val ∧ (i 1).val < win3_4.index t (1 : Fin 2) * 16 + 16; omega

/-- And the projected array. -/
theorem covered_projected (i : S100000x8.Idx) :
    ∃ t : Fin cfg3.N, (cfg3.win 5).flush t = true ∧ i ∈ ((cfg3.win 5).blk t).view.set := by
  have hi0 : (i 0).val < 100000 := (i 0).isLt
  have hi1 : (i 1).val < 8 := (i 1).isLt
  obtain ⟨t, -, ht⟩ := block_onto ⟨(i 0).val / 10000, by omega⟩
  have q0 : win3_5.index t (0 : Fin 2) = (i 0).val / 10000 := congrFun ht 0
  have q1 : win3_5.index t (1 : Fin 2) = 0 := congrFun ht 1
  refine ⟨t, flush3_5 t, ?_⟩
  rw [mem_block_projected]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 8 ≤ (i 1).val ∧ (i 1).val < win3_5.index t (1 : Fin 2) * 8 + 8; omega

/-- After the launch the hidden array is `hidden` of the messages and the bias row the launch found. -/
theorem final_hidden (c : Dev nD) : (dat3 V c).arrAt 4 cfg3.N = hidden (V c main_v74) (V c main_v75) :=
  (dat3 V c).arrAt_eq_of_cover 4 (hidden (V c main_v74) (V c main_v75)) (fun t _ => flushed_hidden V c t) (covered_hidden)

/-- After the launch the projected array is `projected` of the four arrays the launch found. -/
theorem final_projected (c : Dev nD) :
    (dat3 V c).arrAt 5 cfg3.N = projected (V c main_v74) (V c main_v75) (V c main_arg8) (V c main_v76) :=
  (dat3 V c).arrAt_eq_of_cover 5 (projected (V c main_v74) (V c main_v75) (V c main_arg8) (V c main_v76)) (fun t _ => flushed_projected V c t) (covered_projected)

end Cert.KernelIdeal.LayerThree

end
-- ==== Proof.Stages.lean ====
/-
  The launches' whole-array functions meet the reference's stages. Each hidden layer of the reference is
  tanh(aggregate + bias), the bias broadcast over the rows, and each projection the matrix product of the hidden layer
  with a weight — on the extended reals the finite sum Σ_k h[r, k] · W[k, j]. The kernel's launches compute the same
  from a bias reshaped to one row, and add to the first two projections a second bias row that is all zeros; adding
  zero changes nothing on the extended reals, infinite entries included. So, fed the reference's aggregate and the
  reshaped bias rows, a launch's projected array is the reference's next product, and the last launch's hidden array and
  biased projection are the reference's two results.
-/
import proofs.«144924_j60344290508978_1_alg».proof.Proof.LayerOne
import proofs.«144924_j60344290508978_1_alg».proof.Proof.LayerTwo
import proofs.«144924_j60344290508978_1_alg».proof.Proof.LayerThree
import proofs.«144924_j60344290508978_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.Stages

open Idealize.ShloMosaic Idealize.ShloMosaic.TcCoe Idealize.SL.Sem
open Idealize.ShloMosaic.ValueIdx
open Cert.ReferenceIdeal Cert.ReferenceIdeal.Read

/-! ## A vector reshaped to one row, and the all-zeros row -/

/-- A vector of n entries reshaped to [1, n], read at (0, k), is the vector at k. -/
theorem row_apply {α : Type} {n : Nat} (x : (⟨1, ![n]⟩ : Shape).Idx → α)
    (h : (⟨1, ![n]⟩ : Shape).ShapeCasts ⟨2, ![1, n]⟩) (k : Fin n) :
    shapeCast ⟨2, ![1, n]⟩ x h (ix2 (0 : Fin 1) k) = x (ix1 k) :=
  (shapeCast_addUnit_apply ![n] x h (ix2 (0 : Fin 1) k)).trans
    (congrArg x (funext fun a => by match a with | ⟨0, _⟩ => rfl))

/-- The zero splat reshaped to one row is zero at every entry. -/
theorem zero_row_apply {n : Nat} (hb : (⟨0, ![]⟩ : Shape).BroadcastsInDim ⟨1, ![n]⟩ ![])
    (h : (⟨1, ![n]⟩ : Shape).ShapeCasts ⟨2, ![1, n]⟩) (j : (⟨2, ![1, n]⟩ : Shape).Idx) :
    shapeCast ⟨2, ![1, n]⟩ (broadcastInDim ⟨1, ![n]⟩ ![] hb (constant (F := Ideal) ⟨0, ![]⟩ .f32 0x00000000#32)) h j = 0 := by
  show Ideal.ofBits .f32 0x00000000#32 = 0
  exact Ideal.ofBits_zero_f32

/-! ## The first layer: its projection is the reference's second product -/

theorem layer_one (x0 : (⟨S100000x32, .f32⟩ : BufTy).Contents (Elt Ideal)) (x1 : (⟨S2x1600000, .i32⟩ : BufTy).Contents (Elt Ideal))
    (x2 : (⟨S32x32, .f32⟩ : BufTy).Contents (Elt Ideal)) (x3 : (⟨S32, .f32⟩ : BufTy).Contents (Elt Ideal))
    (x4 : (⟨S32x32, .f32⟩ : BufTy).Contents (Elt Ideal))
    (h : S32.ShapeCasts S1x32) (hb : S_.BroadcastsInDim S32 ![]) :
    Cert.KernelIdeal.LayerOne.projected (val_main_v40 (F := Ideal) x0 x1 x2) (shapeCast S1x32 x3 h) x4
        (shapeCast S1x32 (broadcastInDim S32 ![] hb (constant (F := Ideal) S_ .f32 0x00000000#32)) h)
      = val_main_v45 (F := Ideal) x0 x1 x2 x3 x4 := by
  funext i
  rw [val_main_v45_apply]
  unfold Cert.KernelIdeal.LayerOne.projected
  rw [zero_row_apply (n := 32) hb h, add_zero]
  refine Finset.sum_congr rfl fun k _ => ?_
  have e1 : (ix2 (i 0) k : S100000x32.Idx) = lidx_main_v45 i k := funext fun a => by
    match a with | ⟨0, _⟩ => rfl | ⟨1, _⟩ => rfl
  have e2 : (ix2 k (i 1) : S32x32.Idx) = ridx_main_v45 i k := funext fun a => by
    match a with | ⟨0, _⟩ => rfl | ⟨1, _⟩ => rfl
  have e3 : (ix1 k : S32.Idx) = idx_main_v41 (idx_main_v42 (lidx_main_v45 i k)) := funext fun a => by
    match a with | ⟨0, _⟩ => rfl
  rw [row_apply (n := 32) x3 h k, e1, e2, e3, val_main_v44_apply, val_main_v43_apply, val_main_v42_apply, val_main_v41_apply]
  rw [Ideal.hostUnary_tanh_def, Ideal.addf_def]

/-! ## The second layer: its projection is the reference's third product -/

theorem layer_two (x0 : (⟨S100000x32, .f32⟩ : BufTy).Contents (Elt Ideal)) (x1 : (⟨S2x1600000, .i32⟩ : BufTy).Contents (Elt Ideal))
    (x2 : (⟨S32x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x16, .f32⟩ : BufTy).Contents (Elt Ideal))
    (h : S32.ShapeCasts S1x32) (h' : S16.ShapeCasts S1x16) (hb : S_.BroadcastsInDim S16 ![]) :
    Cert.KernelIdeal.LayerTwo.projected (val_main_v58 (F := Ideal) x0 x1 x2 x3 x4) (shapeCast S1x32 x5 h) x6
        (shapeCast S1x16 (broadcastInDim S16 ![] hb (constant (F := Ideal) S_ .f32 0x00000000#32)) h')
      = val_main_v63 (F := Ideal) x0 x1 x2 x3 x4 x5 x6 := by
  funext i
  rw [val_main_v63_apply]
  unfold Cert.KernelIdeal.LayerTwo.projected
  rw [zero_row_apply (n := 16) hb h', add_zero]
  refine Finset.sum_congr rfl fun k _ => ?_
  have e1 : (ix2 (i 0) k : S100000x32.Idx) = lidx_main_v63 i k := funext fun a => by
    match a with | ⟨0, _⟩ => rfl | ⟨1, _⟩ => rfl
  have e2 : (ix2 k (i 1) : S32x16.Idx) = ridx_main_v63 i k := funext fun a => by
    match a with | ⟨0, _⟩ => rfl | ⟨1, _⟩ => rfl
  have e3 : (ix1 k : S32.Idx) = idx_main_v59 (idx_main_v60 (lidx_main_v63 i k)) := funext fun a => by
    match a with | ⟨0, _⟩ => rfl
  rw [row_apply (n := 32) x5 h k, e1, e2, e3, val_main_v62_apply, val_main_v61_apply, val_main_v60_apply, val_main_v59_apply]
  rw [Ideal.hostUnary_tanh_def, Ideal.addf_def]

/-! ## The third layer: its hidden array and its biased projection are the reference's two results -/

theorem layer_three_hidden (x0 : (⟨S100000x32, .f32⟩ : BufTy).Contents (Elt Ideal)) (x1 : (⟨S2x1600000, .i32⟩ : BufTy).Contents (Elt Ideal))
    (x2 : (⟨S32x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x16, .f32⟩ : BufTy).Contents (Elt Ideal)) (x7 : (⟨S16, .f32⟩ : BufTy).Contents (Elt Ideal))
    (h : S16.ShapeCasts S1x16) :
    Cert.KernelIdeal.LayerThree.hidden (val_main_v76 (F := Ideal) x0 x1 x2 x3 x4 x5 x6) (shapeCast S1x16 x7 h)
      = val_main_v80 (F := Ideal) x0 x1 x2 x3 x4 x5 x6 x7 := by
  funext i
  unfold Cert.KernelIdeal.LayerThree.hidden
  have e3 : (ix1 (i 1) : S16.Idx) = idx_main_v77 (idx_main_v78 i) := funext fun a => by
    match a with | ⟨0, _⟩ => rfl
  rw [row_apply (n := 16) x7 h (i 1), e3, val_main_v80_apply, val_main_v79_apply, val_main_v78_apply, val_main_v77_apply]
  rw [Ideal.hostUnary_tanh_def, Ideal.addf_def]

theorem layer_three_projected (x0 : (⟨S100000x32, .f32⟩ : BufTy).Contents (Elt Ideal)) (x1 : (⟨S2x1600000, .i32⟩ : BufTy).Contents (Elt Ideal))
    (x2 : (⟨S32x32, .f32⟩ : BufTy).Contents (Elt Ideal)) (x3 : (⟨S32, .f32⟩ : BufTy).Contents (Elt Ideal))
    (x4 : (⟨S32x32, .f32⟩ : BufTy).Contents (Elt Ideal)) (x5 : (⟨S32, .f32⟩ : BufTy).Contents (Elt Ideal))
    (x6 : (⟨S32x16, .f32⟩ : BufTy).Contents (Elt Ideal)) (x7 : (⟨S16, .f32⟩ : BufTy).Contents (Elt Ideal))
    (x8 : (⟨S16x8, .f32⟩ : BufTy).Contents (Elt Ideal)) (x9 : (⟨S8, .f32⟩ : BufTy).Contents (Elt Ideal))
    (h : S16.ShapeCasts S1x16) (h' : S8.ShapeCasts S1x8) :
    Cert.KernelIdeal.LayerThree.projected (val_main_v76 (F := Ideal) x0 x1 x2 x3 x4 x5 x6) (shapeCast S1x16 x7 h) x8 (shapeCast S1x8 x9 h')
      = val_main_v84 (F := Ideal) x0 x1 x2 x3 x4 x5 x6 x7 x8 x9 := by
  funext i
  rw [val_main_v84_apply, val_main_v81_apply, val_main_v83_apply, val_main_v82_apply]
  unfold Cert.KernelIdeal.LayerThree.projected
  rw [row_apply (n := 8) x9 h' (i 1)]
  have e4 : (ix1 (i 1) : S8.Idx) = idx_main_v82 (idx_main_v83 i) := funext fun a => by
    match a with | ⟨0, _⟩ => rfl
  refine congrArg₂ (· + ·) (Finset.sum_congr rfl fun k _ => ?_) (congrArg x9 e4)
  have e1 : (ix2 (i 0) k : S100000x16.Idx) = lidx_main_v81 i k := funext fun a => by
    match a with | ⟨0, _⟩ => rfl | ⟨1, _⟩ => rfl
  have e2 : (ix2 k (i 1) : S16x8.Idx) = ridx_main_v81 i k := funext fun a => by
    match a with | ⟨0, _⟩ => rfl | ⟨1, _⟩ => rfl
  have e3 : (ix1 k : S16.Idx) = idx_main_v77 (idx_main_v78 (lidx_main_v81 i k)) := funext fun a => by
    match a with | ⟨0, _⟩ => rfl
  rw [row_apply (n := 16) x7 h k, e1, e2, e3, val_main_v80_apply, val_main_v79_apply, val_main_v78_apply, val_main_v77_apply]
  rw [Ideal.hostUnary_tanh_def, Ideal.addf_def]

end Cert.Stages

end
-- ==== Proof.Passage.lean ====
/-
  The idealized kernel's buffers, boundary by boundary. Between the launches the program runs the same host operations
  as the reference: the edge list with a self loop appended per node, the degree of every node, the normalisation
  1/sqrt(deg(src)) · 1/sqrt(deg(dst)) of every edge, and, before each of the last three launches, the aggregate — gather
  the projected rows at the edges' sources, scale by the normalisation, add into the rows of the edges' targets. None of
  that is opened here: each boundary's new array is shown to be the reference's corresponding stage, applied to the
  launch arguments, by following each buffer back through the boundaries it crosses unchanged and by the launches'
  whole-array functions. At the end the two result buffers hold the reference's two results.
-/
import proofs.«144924_j60344290508978_1_alg».proof.Proof.FirstProduct
import proofs.«144924_j60344290508978_1_alg».proof.Proof.LayerOne
import proofs.«144924_j60344290508978_1_alg».proof.Proof.LayerTwo
import proofs.«144924_j60344290508978_1_alg».proof.Proof.LayerThree
import proofs.«144924_j60344290508978_1_alg».proof.Proof.Stages
import proofs.«144924_j60344290508978_1_alg».proof.Proof.Gen.KernelIdeal.Frame
import proofs.«144924_j60344290508978_1_alg».proof.Proof.Gen.ReferenceIdeal.Read
import Idealize.ShloMosaic.Lib.StableHlo.Run

set_option maxRecDepth 16384
set_option maxHeartbeats 4000000

noncomputable section

namespace Cert.KernelIdeal.Passage

open Idealize.ShloMosaic Idealize.ShloMosaic.TcCoe Idealize.SL.Sem Idealize.ShloMosaic.StableHlo
open Idealize.ShloMosaic.Pipeline (Dat)
open Cert.KernelIdeal Cert.KernelIdeal.Gen

variable (m : (ℓ : Loc nD τ sig) → Buf (Elt Ideal) ℓ) (ρ : Dev nD → PrngReg)

/-! ## The arguments where later stretches and launches read them -/

theorem arg0_at1 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem arg2_at1 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem arg3_at2 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem arg4_at3 (c : Dev nD) : W3 m ρ c (Proc.devRef .tc main_arg4) = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem arg5_at4 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem arg6_at5 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem arg7_at6 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem arg9_at6 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem arg8_at7 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## The edge sources, the edge targets and the normalisation cross the launches and the later stretches unchanged -/

theorem v5_at2 (c : Dev nD) : W2 m ρ c (Proc.devRef .tc main_v5) = W1 m ρ c (Proc.devRef .tc main_v5) :=
  calc W2 m ρ c (Proc.devRef .tc main_v5)
    _ = W1 m ρ c (Proc.devRef .tc main_v5) := W2_of_ne m ρ c main_v5 (by decide)

theorem v5_at4 (c : Dev nD) : W4 m ρ c (Proc.devRef .tc main_v5) = W1 m ρ c (Proc.devRef .tc main_v5) :=
  calc W4 m ρ c (Proc.devRef .tc main_v5)
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)

theorem v5_at6 (c : Dev nD) : W6 m ρ c (Proc.devRef .tc main_v5) = W1 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)
    _ = W2 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v5) := W2_of_ne m ρ c main_v5 (by decide)

theorem v6_at2 (c : Dev nD) : W2 m ρ c (Proc.devRef .tc main_v6) = W1 m ρ c (Proc.devRef .tc main_v6) :=
  calc W2 m ρ c (Proc.devRef .tc main_v6)
    _ = W1 m ρ c (Proc.devRef .tc main_v6) := W2_of_ne m ρ c main_v6 (by decide)

theorem v6_at4 (c : Dev nD) : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem v6_at6 (c : Dev nD) : W6 m ρ c (Proc.devRef .tc main_v6) = W1 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v6) := W2_of_ne m ρ c main_v6 (by decide)

theorem v26_at2 (c : Dev nD) : W2 m ρ c (Proc.devRef .tc main_v26) = W1 m ρ c (Proc.devRef .tc main_v26) :=
  calc W2 m ρ c (Proc.devRef .tc main_v26)
    _ = W1 m ρ c (Proc.devRef .tc main_v26) := W2_of_ne m ρ c main_v26 (by decide)

theorem v26_at4 (c : Dev nD) : W4 m ρ c (Proc.devRef .tc main_v26) = W1 m ρ c (Proc.devRef .tc main_v26) :=
  calc W4 m ρ c (Proc.devRef .tc main_v26)
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

theorem v26_at6 (c : Dev nD) : W6 m ρ c (Proc.devRef .tc main_v26) = W1 m ρ c (Proc.devRef .tc main_v26) :=
  calc W6 m ρ c (Proc.devRef .tc main_v26)
    _ = W5 m ρ c (Proc.devRef .tc main_v26) := W6_of_ne m ρ c main_v26 (by decide)
    _ = W4 m ρ c (Proc.devRef .tc main_v26) := StableHlo.after_of_forall_not_mem (b := Proc.devRef .tc main_v26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v26) := W4_of_ne m ρ c main_v26 (by decide)
    _ = W2 m ρ c (Proc.devRef .tc main_v26) := StableHlo.after_of_forall_not_mem (b := Proc.devRef .tc main_v26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v26) := W2_of_ne m ρ c main_v26 (by decide)

/-! ## The first stretch computes them as the reference does -/

theorem sources (c : Dev nD) : W1 m ρ c (Proc.devRef .tc main_v5) = Cert.ReferenceIdeal.Read.val_main_v5 (F := Ideal) (m ((c : Thread nD τ).loc main_arg1)) := by
  show StableHlo.after hostOps0 (W0 m ρ c) (Proc.devRef .tc main_v5) = _
  after_results_simp <;> rfl

theorem targets (c : Dev nD) : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp <;> rfl

theorem normalisation (c : Dev nD) : W1 m ρ c (Proc.devRef .tc main_v26) = Cert.ReferenceIdeal.Read.val_main_v26 (F := Ideal) (m ((c : Thread nD τ).loc main_arg1)) := by
  show StableHlo.after hostOps0 (W0 m ρ c) (Proc.devRef .tc main_v26) = _
  after_results_simp <;> rfl

/-! ## The first launch and the first aggregate -/

theorem product_one (c : Dev nD) : W2 m ρ c (Proc.devRef .tc main_v27) = Cert.ReferenceIdeal.Read.val_main_v27 (F := Ideal) (m ((c : Thread nD τ).loc main_arg0)) (m ((c : Thread nD τ).loc main_arg2)) := by
  refine (W2_arr m ρ c 2).trans ((FirstProduct.final (V1 m ρ) c).trans ?_)
  show Cert.ReferenceIdeal.Read.val_main_v27 (F := Ideal) (W1 m ρ c (Proc.devRef .tc main_arg0)) (W1 m ρ c (Proc.devRef .tc main_arg2)) = _
  rw [arg0_at1, arg2_at1]

theorem aggregate_one (c : Dev nD) : W3 m ρ c (Proc.devRef .tc main_v40) = Cert.ReferenceIdeal.Read.val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [v6_at2, v5_at2, v26_at2, product_one, sources, targets, normalisation]
  rfl

theorem bias_one (c : Dev nD) : W3 m ρ c (Proc.devRef .tc main_v42) = shapeCast S1x32 (m ((c : Thread nD τ).loc main_arg3)) shapeCasts_S32_S1x32 := by
  show StableHlo.after hostOps1 (W2 m ρ c) (Proc.devRef .tc main_v42) = _
  after_results_simp
  rw [arg3_at2]
  rfl

theorem zero_one (c : Dev nD) : W3 m ρ c (Proc.devRef .tc main_v43)
    = shapeCast S1x32 (broadcastInDim S32 ![] bcast_S_S32 (constant (F := Ideal) S_ .f32 0x00000000#32)) shapeCasts_S32_S1x32 := by
  show StableHlo.after hostOps1 (W2 m ρ c) (Proc.devRef .tc main_v43) = _
  after_results_simp <;> rfl

/-! ## The second launch and the second aggregate -/

theorem product_two (c : Dev nD) : W4 m ρ c (Proc.devRef .tc main_v44_1) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W4_arr m ρ c 5).trans ((LayerOne.final_projected (V3 m ρ) c).trans ?_)
  show LayerOne.projected (W3 m ρ c (Proc.devRef .tc main_v40)) (W3 m ρ c (Proc.devRef .tc main_v42)) (W3 m ρ c (Proc.devRef .tc main_arg4)) (W3 m ρ c (Proc.devRef .tc main_v43)) = _
  rw [aggregate_one, bias_one, arg4_at3, zero_one]
  exact Cert.Stages.layer_one _ _ _ _ _ _ _

theorem aggregate_two (c : Dev nD) : W5 m ρ c (Proc.devRef .tc main_v57) = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W4 m ρ c) (Proc.devRef .tc main_v57) = _
  after_results_simp
  rw [v6_at4, v5_at4, v26_at4, product_two, sources, targets, normalisation]
  rfl

theorem bias_two (c : Dev nD) : W5 m ρ c (Proc.devRef .tc main_v59) = shapeCast S1x32 (m ((c : Thread nD τ).loc main_arg5)) shapeCasts_S32_S1x32 := by
  show StableHlo.after hostOps2 (W4 m ρ c) (Proc.devRef .tc main_v59) = _
  after_results_simp
  rw [arg5_at4]
  rfl

theorem zero_two (c : Dev nD) : W5 m ρ c (Proc.devRef .tc main_v60)
    = shapeCast S1x16 (broadcastInDim S16 ![] bcast_S_S16 (constant (F := Ideal) S_ .f32 0x00000000#32)) shapeCasts_S16_S1x16 := by
  show StableHlo.after hostOps2 (W4 m ρ c) (Proc.devRef .tc main_v60) = _
  after_results_simp <;> rfl

/-! ## The third launch and the third aggregate -/

theorem product_three (c : Dev nD) : W6 m ρ c (Proc.devRef .tc main_v61_1) = Cert.ReferenceIdeal.Read.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 5).trans ((LayerTwo.final_projected (V5 m ρ) c).trans ?_)
  show LayerTwo.projected (W5 m ρ c (Proc.devRef .tc main_v57)) (W5 m ρ c (Proc.devRef .tc main_v59)) (W5 m ρ c (Proc.devRef .tc main_arg6)) (W5 m ρ c (Proc.devRef .tc main_v60)) = _
  rw [aggregate_two, bias_two, arg6_at5, zero_two]
  exact Cert.Stages.layer_two _ _ _ _ _ _ _ _ _ _

theorem aggregate_three (c : Dev nD) : W7 m ρ c (Proc.devRef .tc main_v74) = Cert.ReferenceIdeal.Read.val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps3 (W6 m ρ c) (Proc.devRef .tc main_v74) = _
  after_results_simp
  rw [v6_at6, v5_at6, v26_at6, product_three, sources, targets, normalisation]
  rfl

theorem bias_three (c : Dev nD) : W7 m ρ c (Proc.devRef .tc main_v75) = shapeCast S1x16 (m ((c : Thread nD τ).loc main_arg7)) shapeCasts_S16_S1x16 := by
  show StableHlo.after hostOps3 (W6 m ρ c) (Proc.devRef .tc main_v75) = _
  after_results_simp
  rw [arg7_at6]
  rfl

theorem bias_out (c : Dev nD) : W7 m ρ c (Proc.devRef .tc main_v76) = shapeCast S1x8 (m ((c : Thread nD τ).loc main_arg9)) shapeCasts_S8_S1x8 := by
  show StableHlo.after hostOps3 (W6 m ρ c) (Proc.devRef .tc main_v76) = _
  after_results_simp
  rw [arg9_at6]
  rfl

/-! ## The last launch: the two results -/

theorem result_out (c : Dev nD) : W8 m ρ c (Proc.devRef .tc main_v77_1) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W8_arr m ρ c 5).trans ((LayerThree.final_projected (V7 m ρ) c).trans ?_)
  show LayerThree.projected (W7 m ρ c (Proc.devRef .tc main_v74)) (W7 m ρ c (Proc.devRef .tc main_v75)) (W7 m ρ c (Proc.devRef .tc main_arg8)) (W7 m ρ c (Proc.devRef .tc main_v76)) = _
  rw [aggregate_three, bias_three, arg8_at7, bias_out]
  exact Cert.Stages.layer_three_projected _ _ _ _ _ _ _ _ _ _ _ _

theorem result_hidden (c : Dev nD) : W8 m ρ c (Proc.devRef .tc main_v77_0) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 4).trans ((LayerThree.final_hidden (V7 m ρ) c).trans ?_)
  show LayerThree.hidden (W7 m ρ c (Proc.devRef .tc main_v74)) (W7 m ρ c (Proc.devRef .tc main_v75)) = _
  rw [aggregate_three, bias_three]
  exact Cert.Stages.layer_three_hidden _ _ _ _ _ _ _ _ _

end Cert.KernelIdeal.Passage

end
-- ==== Proof.lean ====
/-
  A three-layer graph convolution with a linear read-out, the kernel against its reference, on the extended reals.

  Both programs take node features x : [100000, 32], an edge list of 1600000 (source, target) pairs, and the weights and
  biases of three layers and a read-out. Both append a self loop per node, count each node's incoming edges deg, and
  weight an edge by 1/sqrt(deg(source)) · 1/sqrt(deg(target)). A layer maps node values h to

      tanh( A(h · W) + b ),      A(p)[v] = Σ over edges e into v of  weight(e) · p[source(e)],

  and the results are the read-out  h₃ · W_c + b_c  and the last hidden layer h₃. The reference computes the products
  h · W as whole matrix products. The kernel computes the same products in launches that walk the 100000 rows in ten
  blocks of 10000, the factors first narrowed to a shorter float format, the sum accumulated from zero; from the second
  launch on each launch also applies the bias and tanh of the layer before its product, and adds a second bias row that
  is all zeros except at the read-out. On the extended reals a change of float format is the identity, a product's
  entry is the finite sum Σ_k h[r, k] · W[k, j] however it is blocked, zero plus a sum is the sum, and adding a zero bias
  changes nothing. The gathering and scattering between the launches are the same operations in both programs and are
  never opened. So the two programs end with equal results, entry by entry, for all inputs: no finiteness of the inputs
  is used. Nothing of the kernel was rewritten on the way to its idealized form, so that conjunct is trivial; the three
  programs run to the end without fault and leave their arguments unchanged.
-/
import proofs.«144924_j60344290508978_1_alg».proof.Defs
import proofs.«144924_j60344290508978_1_alg».proof.Proof.Gen.Kernel
import proofs.«144924_j60344290508978_1_alg».proof.Proof.Gen.Kernel.Skeleton
import proofs.«144924_j60344290508978_1_alg».proof.Proof.Gen.Kernel.Launch
import proofs.«144924_j60344290508978_1_alg».proof.Proof.Gen.Kernel.Points
import proofs.«144924_j60344290508978_1_alg».proof.Proof.Gen.Kernel.Frame
import proofs.«144924_j60344290508978_1_alg».proof.Proof.Gen.KernelIdeal
import proofs.«144924_j60344290508978_1_alg».proof.Proof.Gen.KernelIdeal.Skeleton
import proofs.«144924_j60344290508978_1_alg».proof.Proof.Gen.KernelIdeal.Launch
import proofs.«144924_j60344290508978_1_alg».proof.Proof.Gen.KernelIdeal.Points
import proofs.«144924_j60344290508978_1_alg».proof.Proof.Gen.KernelIdeal.Frame
import proofs.«144924_j60344290508978_1_alg».proof.Proof.Gen.ReferenceIdeal
import proofs.«144924_j60344290508978_1_alg».proof.Proof.Gen.ReferenceIdeal.Run
import proofs.«144924_j60344290508978_1_alg».proof.Proof.Gen.ReferenceIdeal.Read
import proofs.«144924_j60344290508978_1_alg».proof.Proof.Gen.Pre_finite_inputs
import proofs.«144924_j60344290508978_1_alg».proof.Proof.ResultRun
import proofs.«144924_j60344290508978_1_alg».proof.Proof.Passage
import Idealize.ShloMosaic.Adequacy
import Idealize.ShloMosaic.Init

set_option maxRecDepth 16384

noncomputable section

namespace Cert.Proof

open Idealize.ShloMosaic Idealize.SL.Sem

/-- The word-level kernel runs to the end without fault and leaves its arguments unchanged. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- And the idealized reference: its run, the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- From memories that agree on the arguments both idealized programs end with the read-out and the last hidden layer
    as the reference's stages of the arguments: the kernel by following its buffers through its four launches, the
    reference by its run. -/
theorem algebraic : Cert.algebraic_KernelIdeal_ReferenceIdeal := by
  intro m ρ m' ρ' _ hagree
  refine ⟨fun c => Cert.ReferenceIdeal.Read.val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.ResultRun.run_results (F := Ideal) m ρ)
    obtain ⟨h1, h0, hargs⟩ := h c
    exact ⟨h1.trans (Cert.KernelIdeal.Passage.result_out m ρ c), h0.trans (Cert.KernelIdeal.Passage.result_hidden m ρ c), hargs⟩
  · refine (θ_run Cert.ReferenceIdeal.defs _ _).mono (fun r h c => ?_) (Cert.ReferenceIdeal.Value.run (F := Ideal) m' ρ')
    obtain ⟨h1, h0, hargs⟩ := h c
    obtain ⟨a0, a1, a2, a3, a4, a5, a6, a7, a8, a9⟩ := hagree c
    refine ⟨?_, ?_, hargs⟩
    · rw [h1, Cert.ReferenceIdeal.Read.val_main_v84_eq, a0, a1, a2, a3, a4, a5, a6, a7, a8, a9]
    · rw [h0, Cert.ReferenceIdeal.Read.val_main_v80_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
